-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x256 : Shape := ⟨3, ![8, 2048, 256]⟩
abbrev S256x256 : Shape := ⟨2, ![256, 256]⟩
abbrev S256 : Shape := ⟨1, ![256]⟩
abbrev S_ : Shape := ⟨0, ![]⟩

class Facts : Prop where
  bcast_S_S8x2048x256 : S_.BroadcastsInDim S8x2048x256 (![] : Fin 0 → Fin S8x2048x256.rank)
  reducesTo_S8x2048x256_S_d0_1_2 : S8x2048x256.ReducesTo [0, 1, 2] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  main_v18

def fn {F : FTy → Type} [FloatOps F] (main_arg0 : FVec F S8x2048x256 .f32) (main_arg1 : FVec F S8x2048x256 .f32) (main_arg2 : FVec F S256x256 .f32) (main_arg3 : FVec F S256 .f32) : IVec S_ 1 :=
  let main_v0 : FVec F S8x2048x256 .f32 := Host.absf main_arg0
  let main_cst : FVec F S_ .f32 := constant S_ .f32 0x7F800000#32
  let main_v1 : FVec F S8x2048x256 .f32 := broadcastInDim S8x2048x256 ![] bcast_S_S8x2048x256 main_cst
  let main_v2 : IVec S8x2048x256 1 := cmpf .olt main_v0 main_v1
  let main_c : IVec S_ 1 := constantI S_ 1 1#1
  let main_v3 : IVec S_ 1 := (fun x v => Host.reduce IntOp.andi x v reducesTo_S8x2048x256_S_d0_1_2 h_S_) main_v2 main_c
  let main_v4 : FVec F S8x2048x256 .f32 := Host.absf main_arg1
  let main_cst_0 : FVec F S_ .f32 := constant S_ .f32 0x7F800000#32
  let main_v5 : FVec F S8x2048x256 .f32 := broadcastInDim S8x2048x256 ![] bcast_S_S8x2048x256 main_cst_0
  let main_v6 : IVec S8x2048x256 1 := cmpf .olt main_v4 main_v5
  let main_c_1 : IVec S_ 1 := constantI S_ 1 1#1
  let main_v7 : IVec S_ 1 := (fun x v => Host.reduce IntOp.andi x v reducesTo_S8x2048x256_S_d0_1_2 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_v13 main_v16
-- ==== Kernel.lean ====
abbrev S8x2048x256 : Shape := ⟨3, ![8, 2048, 256]⟩
abbrev S256x256 : Shape := ⟨2, ![256, 256]⟩
abbrev S256 : Shape := ⟨1, ![256]⟩
abbrev S8x4096x256 : Shape := ⟨3, ![8, 4096, 256]⟩
abbrev S1x2048x256 : Shape := ⟨3, ![1, 2048, 256]⟩
abbrev S1x256x256 : Shape := ⟨3, ![1, 256, 256]⟩
abbrev S2048x256 : Shape := ⟨2, ![2048, 256]⟩
abbrev S1x256 : Shape := ⟨2, ![1, 256]⟩
abbrev S256x2048 : Shape := ⟨2, ![256, 2048]⟩
abbrev S256x1 : Shape := ⟨2, ![256, 1]⟩

abbrev nBuf : Space → Nat
  | .hbm => 5
  | .vmem => 10
  | .smem => 0
  | _ => 0

abbrev bufTy : (tb : Table) → Fin (tcTables nBuf tb) → BufTy
  | .hbm, ⟨0, _⟩ => ⟨S8x2048x256, .f32⟩
  | .hbm, ⟨1, _⟩ => ⟨S8x2048x256, .f32⟩
  | .hbm, ⟨2, _⟩ => ⟨S256x256, .f32⟩
  | .hbm, ⟨3, _⟩ => ⟨S256, .f32⟩
  | .hbm, ⟨4, _⟩ => ⟨S8x4096x256, .f32⟩
  | .local _ .vmem, ⟨0, _⟩ => ⟨S1x2048x256, .f32⟩
  | .local _ .vmem, ⟨1, _⟩ => ⟨S1x2048x256, .f32⟩
  | .local _ .vmem, ⟨2, _⟩ => ⟨S1x2048x256, .f32⟩
  | .local _ .vmem, ⟨3, _⟩ => ⟨S1x2048x256, .f32⟩
  | .local _ .vmem, ⟨4, _⟩ => ⟨S256x256, .f32⟩
  | .local _ .vmem, ⟨5, _⟩ => ⟨S256, .f32⟩
  | .local _ .vmem, ⟨6, _⟩ => ⟨S1x256x256, .f32⟩
  | .local _ .vmem, ⟨7, _⟩ => ⟨S1x256x256, .f32⟩
  | .local _ .vmem, ⟨8, _⟩ => ⟨S2048x256, .f32⟩
  | .local _ .vmem, ⟨9, _⟩ => ⟨S2048x256, .f32⟩
  | _, _ => ⟨S8x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨3, ![8, 8, 2], ![false, false, false]⟩

def k0_mult1 (i : grid0.Coords) : BitVec 32 :=
  let arg1 : BitVec 32 := BitVec.ofNat 32 (i 1).val
  let c256_i32 : BitVec 32 := 256#32
  let v5 : BitVec 32 := Scalar.muli arg1 c256_i32
  v5
def k0_cond2 (i : grid0.Coords) : BitVec 1 :=
  let arg2 : BitVec 32 := BitVec.ofNat 32 (i 2).val
  let c0_i32_2 : BitVec 32 := 0#32
  let v7 : BitVec 1 := Scalar.cmpi .eq arg2 c0_i32_2
  let v8 : BitVec 32 := Scalar.extui v7
  let c0_i32_3 : BitVec 32 := 0#32
  let v9 : BitVec 1 := Scalar.cmpi .ne v8 c0_i32_3
  v9

def k0_off1 (i : grid0.Coords) : Fin 2 → Nat :=
  let arg1 : BitVec 32 := BitVec.ofNat 32 (i 1).val
  let c256_i32 : BitVec 32 := 256#32
  let v5 : BitVec 32 := Scalar.muli arg1 c256_i32
  let v6 : BitVec 32 := v5
  let v13 : Index := Scalar.indexCast v6
  let c0 : Index := 0#32
  ![v13.toNat, 0]
def k0_cond3 (i : grid0.Coords) : BitVec 1 :=
  let arg2 : BitVec 32 := BitVec.ofNat 32 (i 2).val
  let c1_i32 : BitVec 32 := 1#32
  let v10 : BitVec 1 := Scalar.cmpi .eq arg2 c1_i32
  let v11 : BitVec 32 := Scalar.extui v10
  let c0_i32_4 : BitVec 32 := 0#32
  let v12 : BitVec 1 := Scalar.cmpi .ne v11 c0_i32_4
  v12

def k0_off2 (i : grid0.Coords) : Fin 2 → Nat :=
  let arg1 : BitVec 32 := BitVec.ofNat 32 (i 1).val
  let c256_i32 : BitVec 32 := 256#32
  let v5 : BitVec 32 := Scalar.muli arg1 c256_i32
  let v6 : BitVec 32 := v5
  let v13 : Index := Scalar.indexCast v6
  let c0 : Index := 0#32
  ![v13.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg2 c8_i32
  let v1 : BitVec 32 := Scalar.addi v0 arg1
  let c0_i32 : BitVec 32 := 0#32
  let c0_i32_0 : BitVec 32 := 0#32
  ![arg0.toNat, v1.toNat, c0_i32.toNat]

abbrev stage0_0 : Fin 2 → Memref sig .tc .vmem S1x2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1x2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 1 → Memref sig .tc .vmem S256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1x256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

class Facts₀ : Prop where
  inb_S1x2048x256_S1x2048x256_0_0_0 : ∀ a, (![0, 0, 0] : Fin 3 → Nat) a + S1x2048x256.size a ≤ S1x2048x256.size a
  h_S1x2048x256 : 0 < S1x2048x256.numel
  shapeCasts_S1x2048x256_S2048x256 : S1x2048x256.ShapeCasts S2048x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  inb_S256_S256_0 : ∀ a, (![0] : Fin 1 → Nat) a + S256.size a ≤ S256.size a
  h_S256 : 0 < S256.numel
  shapeCasts_S256_S1x256 : S256.ShapeCasts S1x256
  broadcasts_S1x256_S2048x256 : S1x256.Broadcasts S2048x256
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  reduces_S256x2048_S256 : S256x2048.Reduces [1] S256
  shapeCasts_S256_S256x1 : S256.ShapeCasts S256x1
  broadcasts_S256x1_S256x2048 : S256x1.Broadcasts S256x2048
  inb_S1x256x256_S1x256x256_0_0_0 : ∀ a, (![0, 0, 0] : Fin 3 → Nat) a + S1x256x256.size a ≤ S1x256x256.size a
  h_S1x256x256 : 0 < S1x256x256.numel
  shapeCasts_S1x256x256_S256x256 : S1x256x256.ShapeCasts S256x256
  shapeCasts_S256x256_S1x256x256 : S256x256.ShapeCasts S1x256x256
  dot_S2048x256_S256x256_S2048x256_1_0_0_1_n_n_wf : DotDims.WF S2048x256 S256x256 S2048x256 [1] [0] [0] [1] [] []
  dot_S256x256_S2048x256_S256x2048_1_1_0_0_n_n_wf : DotDims.WF S256x256 S2048x256 S256x2048 [1] [1] [0] [0] [] []
  dot_S256x2048_S2048x256_S256x256_1_0_0_1_n_n_wf : DotDims.WF S256x2048 S2048x256 S256x256 [1] [0] [0] [1] [] []
  hrank0 : 0 < grid0.rank
  k0_mult1_dvd : ∀ i : grid0.Coords, 256 ∣ (k0_mult1 i).toNat
  k0_off1_inb : ∀ i : grid0.Coords, ∀ (k0_h2 : k0_cond2 i = 1#1), ∀ a, (k0_off1 i) a + S256x256.size a ≤ S2048x256.size a
  k0_off2_inb : ∀ i : grid0.Coords, ∀ (k0_h3 : k0_cond3 i = 1#1), ∀ a, (k0_off2 i) a + S256x256.size a ≤ S2048x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x256.size a ≤ S8x2048x256.size a
  hwx0_0 : ∀ i : grid0.Coords, EltTy.bits .f32 = 32 ∨ (Rect.block (s := S8x2048x256) S1x2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x256.size a ≤ S8x2048x256.size a
  hwx0_1 : ∀ i : grid0.Coords, EltTy.bits .f32 = 32 ∨ (Rect.block (s := S8x2048x256) S1x2048x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256.size a ≤ S256.size a
  hwx0_3 : ∀ i : grid0.Coords, EltTy.bits .f32 = 32 ∨ (Rect.block (s := S256) S256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256x256.size a ≤ S8x4096x256.size a
  hwx0_4 : ∀ i : grid0.Coords, EltTy.bits .f32 = 32 ∨ (Rect.block (s := S8x4096x256) S1x256x256.size (cc0_transform_4 i) (hinb0_4 i)).WholeWords (EltTy.packing .f32)

variable [Facts₀]

def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def dot_S256x256_S2048x256_S256x2048_1_1_0_0_n_n : DotDims S256x256 S2048x256 S256x2048 where
  lhsContracting := [1]
  rhsContracting := [1]
  lhsNonContracting := [0]
  rhsNonContracting := [0]
  lhsBatch := []
  rhsBatch := []
  wf := dot_S256x256_S2048x256_S256x2048_1_1_0_0_n_n_wf
def dot_S256x2048_S2048x256_S256x256_1_0_0_1_n_n : DotDims S256x2048 S2048x256 S256x256 where
  lhsContracting := [1]
  rhsContracting := [0]
  lhsNonContracting := [0]
  rhsNonContracting := [1]
  lhsBatch := []
  rhsBatch := []
  wf := dot_S256x2048_S2048x256_S256x256_1_0_0_1_n_n_wf

abbrev win0_0 : Pipeline.Window sig grid0 :=
  Pipeline.Window.ofSpec (Memref.whole main_arg0) S1x2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x256x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) && !(k0_cond3 i == 1#1) | ⟨_ + 5, h⟩ => absurd h (Nat.not_lt.2 (Nat.le_add_left _ _))

class Facts : Prop extends Facts₀ where

variable [Facts]
-- ==== ReferenceIdeal.lean ====
abbrev S8x2048x256 : Shape := ⟨3, ![8, 2048, 256]⟩
abbrev S256x256 : Shape := ⟨2, ![256, 256]⟩
abbrev S256 : Shape := ⟨1, ![256]⟩
abbrev S1x1x256 : Shape := ⟨3, ![1, 1, 256]⟩
abbrev S_ : Shape := ⟨0, ![]⟩
abbrev S8x2048x2048 : Shape := ⟨3, ![8, 2048, 2048]⟩
abbrev S8x2048 : Shape := ⟨2, ![8, 2048]⟩
abbrev S8x2048x1 : Shape := ⟨3, ![8, 2048, 1]⟩
abbrev S8x4096x256 : Shape := ⟨3, ![8, 4096, 256]⟩

abbrev nBuf : Space → Nat
  | .hbm => 53
  | .vmem => 0
  | .smem => 0
  | _ => 0

abbrev bufTy : (tb : Table) → Fin (tcTables nBuf tb) → BufTy
  | .hbm, ⟨0, _⟩ => ⟨S8x2048x256, .f32⟩
  | .hbm, ⟨1, _⟩ => ⟨S8x2048x256, .f32⟩
  | .hbm, ⟨2, _⟩ => ⟨S256x256, .f32⟩
  | .hbm, ⟨3, _⟩ => ⟨S256, .f32⟩
  | .hbm, ⟨4, _⟩ => ⟨S8x2048x256, .f32⟩
  | .hbm, ⟨5, _⟩ => ⟨S1x1x256, .f32⟩
  | .hbm, ⟨6, _⟩ => ⟨S8x2048x256, .f32⟩
  | .hbm, ⟨7, _⟩ => ⟨S8x2048x256, .f32⟩
  | .hbm, ⟨8, _⟩ => ⟨S8x2048x256, .f32⟩
  | .hbm, ⟨9, _⟩ => ⟨S1x1x256, .f32⟩
  | .hbm, ⟨10, _⟩ => ⟨S8x2048x256, .f32⟩
  | .hbm, ⟨11, _⟩ => ⟨S8x2048x256, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S8x2048x2048, .f32⟩
  | .hbm, ⟨17, _⟩ => ⟨S8x2048x2048, .f32⟩
  | .hbm, ⟨18, _⟩ => ⟨S8x2048x2048, .f32⟩
  | .hbm, ⟨19, _⟩ => ⟨S_, .f32⟩
  | .hbm, ⟨20, _⟩ => ⟨S8x2048, .f32⟩
  | .hbm, ⟨21, _⟩ => ⟨S_, .f32⟩
  | .hbm, ⟨22, _⟩ => ⟨S8x2048, .f32⟩
  | .hbm, ⟨23, _⟩ => ⟨S8x2048, .f32⟩
  | .hbm, ⟨24, _⟩ => ⟨S8x2048x1, .f32⟩
  | .hbm, ⟨25, _⟩ => ⟨S8x2048x2048, .f32⟩
  | .hbm, ⟨26, _⟩ => ⟨S8x2048x2048, .f32⟩
  | .hbm, ⟨27, _⟩ => ⟨S8x2048x2048, .f32⟩
  | .hbm, ⟨28, _⟩ => ⟨S_, .f32⟩
  | .hbm, ⟨29, _⟩ => ⟨S8x2048, .f32⟩
  | .hbm, ⟨30, _⟩ => ⟨S8x2048x1, .f32⟩
  | .hbm, ⟨31, _⟩ => ⟨S8x2048x2048, .f32⟩
  | .hbm, ⟨32, _⟩ => ⟨S8x2048x2048, .f32⟩
  | .hbm, ⟨33, _⟩ => ⟨S8x2048x256, .f32⟩
  | .hbm, ⟨34, _⟩ => ⟨S8x2048x2048, .f32⟩
  | .hbm, ⟨35, _⟩ => ⟨S8x2048x2048, .f32⟩
  | .hbm, ⟨36, _⟩ => ⟨S8x2048x2048, .f32⟩
  | .hbm, ⟨37, _⟩ => ⟨S_, .f32⟩
  | .hbm, ⟨38, _⟩ => ⟨S8x2048, .f32⟩
  | .hbm, ⟨39, _⟩ => ⟨S_, .f32⟩
  | .hbm, ⟨40, _⟩ => ⟨S8x2048, .f32⟩
  | .hbm, ⟨41, _⟩ => ⟨S8x2048, .f32⟩
  | .hbm, ⟨42, _⟩ => ⟨S8x2048x1, .f32⟩
  | .hbm, ⟨43, _⟩ => ⟨S8x2048x2048, .f32⟩
  | .hbm, ⟨44, _⟩ => ⟨S8x2048x2048, .f32⟩
  | .hbm, ⟨45, _⟩ => ⟨S8x2048x2048, .f32⟩
  | .hbm, ⟨46, _⟩ => ⟨S_, .f32⟩
  | .hbm, ⟨47, _⟩ => ⟨S8x2048, .f32⟩
  | .hbm, ⟨48, _⟩ => ⟨S8x2048x1, .f32⟩
  | .hbm, ⟨49, _⟩ => ⟨S8x2048x2048, .f32⟩
  | .hbm, ⟨50, _⟩ => ⟨S8x2048x2048, .f32⟩
  | .hbm, ⟨51, _⟩ => ⟨S8x2048x256, .f32⟩
  | .hbm, ⟨52, _⟩ => ⟨S8x4096x256, .f32⟩
  | _, _ => ⟨S8x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_4 : Ref sig .tc := ⟨.hbm, 37, rfl⟩
abbrev main_v28 : Ref sig .tc := ⟨.hbm, 38, rfl⟩
abbrev main_cst_5 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_6 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩

abbrev nD : Nat := 1
abbrev τ : Topo := Topo.v7x

variable {F : FTy → Type} [FloatOps F]

class Facts₀ : Prop where
  bcast_S256_S1x1x256_2 : S256.BroadcastsInDim S1x1x256 (![2] : Fin 1 → Fin S1x1x256.rank)
  bcast_S1x1x256_S8x2048x256_0_1_2 : S1x1x256.BroadcastsInDim S8x2048x256 (![0, 1, 2] : Fin 3 → Fin S8x2048x256.rank)
  bcast_S_S8x2048x2048 : S_.BroadcastsInDim S8x2048x2048 (![] : Fin 0 → Fin S8x2048x2048.rank)
  reducesTo_S8x2048x2048_S8x2048_d2 : S8x2048x2048.ReducesTo [2] S8x2048
  h_S_ : 0 < S_.numel
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x2048x1_S8x2048x2048_0_1_2 : S8x2048x1.BroadcastsInDim S8x2048x2048 (![0, 1, 2] : Fin 3 → Fin S8x2048x2048.rank)
  concatenates_S8x2048x256_S8x2048x256_S8x4096x256_d1 : Shape.Concatenates [S8x2048x256, S8x2048x256] S8x4096x256 1
  dot_S8x2048x256_S256x256_S8x2048x256_2_0_01_1_n_n_wf : DotDims.WF S8x2048x256 S256x256 S8x2048x256 [2] [0] [0, 1] [1] [] []
  dot_S8x2048x256_S8x2048x256_S8x2048x2048_2_2_1_1_0_0_wf : DotDims.WF S8x2048x256 S8x2048x256 S8x2048x2048 [2] [2] [1] [1] [0] [0]
  dot_S8x2048x2048_S8x2048x256_S8x2048x256_2_1_1_2_0_0_wf : DotDims.WF S8x2048x2048 S8x2048x256 S8x2048x256 [2] [1] [1] [2] [0] [0]

variable [Facts₀]

def dot_S8x2048x256_S256x256_S8x2048x256_2_0_01_1_n_n : DotDims S8x2048x256 S256x256 S8x2048x256 where
  lhsContracting := [2]
  rhsContracting := [0]
  lhsNonContracting := [0, 1]
  rhsNonContracting := [1]
  lhsBatch := []
  rhsBatch := []
  wf := dot_S8x2048x256_S256x256_S8x2048x256_2_0_01_1_n_n_wf
def dot_S8x2048x256_S8x2048x256_S8x2048x2048_2_2_1_1_0_0 : DotDims S8x2048x256 S8x2048x256 S8x2048x2048 where
  lhsContracting := [2]
  rhsContracting := [2]
  lhsNonContracting := [1]
  rhsNonContracting := [1]
  lhsBatch := [0]
  rhsBatch := [0]
  wf := dot_S8x2048x256_S8x2048x256_S8x2048x2048_2_2_1_1_0_0_wf
def dot_S8x2048x2048_S8x2048x256_S8x2048x256_2_1_1_2_0_0 : DotDims S8x2048x2048 S8x2048x256 S8x2048x256 where
  lhsContracting := [2]
  rhsContracting := [1]
  lhsNonContracting := [1]
  rhsNonContracting := [2]
  lhsBatch := [0]
  rhsBatch := [0]
  wf := dot_S8x2048x2048_S8x2048x256_S8x2048x256_2_1_1_2_0_0_wf

class Facts : Prop extends Facts₀ where

variable [Facts]
-- ==== Proof.Spec.lean ====
/-
  Mutual cross attention as ONE function of the four argument arrays, index by index, over the extended reals.

  For a batch `bb` write X1, X2 for the two [2048, 256] slabs of the inputs, and
    Q = X1·W + b,  K = X2·W + b                     (the shared dense projection, a bias row added to every row).
  A row `q` of one side attends to the other side's projected rows `k` and raw rows `v`:
    s t  = (∑ f, q f · k t f) · c                    (scaled scores along the other sequence)
    p t  = exp (s t − max over t of s) / ∑ u, exp (s u − max over t of s)
    out e = ∑ t, p t · v t e.
  The result [8, 4096, 256] holds, for rows below 2048, row r of Q attending (K, X2); for rows from 2048 on, row
  r − 2048 of K attending (Q, X1).  The maximum is the fold of `max` from an initial value `ninf` (both programs pass
  the pattern of −∞), so that no order of the fold enters.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- The dense projection of a [2048, 256] slab: row r, feature f ↦ (∑ d, x r d · W d f) + b f. -/
def proj (x : Fin 2048 → Fin 256 → EReal) (W : Fin 256 → Fin 256 → EReal) (b : Fin 256 → EReal) :
    Fin 2048 → Fin 256 → EReal :=
  fun r f => (∑ d : Fin 256, x r d * W d f) + b f

/-- The scaled scores of one query row against every key row. -/
def score (c : EReal) (q : Fin 256 → EReal) (k : Fin 2048 → Fin 256 → EReal) : Fin 2048 → EReal :=
  fun t => (∑ f : Fin 256, q f * k t f) * c

/-- A row's maximum, folded from `ninf`. -/
def rowMax (ninf : EReal) (s : Fin 2048 → EReal) : EReal :=
  (Finset.univ : Finset (Fin 2048)).fold max ninf s

/-- The softmax weight of position t in a row of scores. -/
def weight (ninf : EReal) (s : Fin 2048 → EReal) (t : Fin 2048) : EReal :=
  Ideal.div (Ideal.exp (s t - rowMax ninf s)) (∑ u : Fin 2048, Ideal.exp (s u - rowMax ninf s))

/-- One output row: the weighted sum of the value rows. -/
def attend (c ninf : EReal) (q : Fin 256 → EReal) (k v : Fin 2048 → Fin 256 → EReal) (e : Fin 256) : EReal :=
  ∑ t : Fin 2048, weight ninf (score c q k) t * v t e

/-- Batch `bb`'s slab of a [8, 2048, 256] array. -/
def slab (x : (⟨3, ![8, 2048, 256]⟩ : Shape).Idx → EReal) (bb : Fin 8) : Fin 2048 → Fin 256 → EReal :=
  fun r d => x (ix3 bb r d)

/-- A [256, 256] array as a matrix, a [256] array as a row. -/
def mat (W : (⟨2, ![256, 256]⟩ : Shape).Idx → EReal) : Fin 256 → Fin 256 → EReal := fun d f => W (ix2 d f)
def row (b : (⟨1, ![256]⟩ : Shape).Idx → EReal) : Fin 256 → EReal := fun f => b (ix1 f)

/-- The scale both programs multiply the scores by: the f32 pattern of 1/16. -/
abbrev scale : EReal := Ideal.ofBits .f32 0x3D800000#32
/-- The initial value of both programs' row maximum: the f32 pattern of −∞. -/
abbrev ninf : EReal := Ideal.ofBits .f32 0xFF800000#32

/-- THE RESULT at (bb, R, e): for R < 2048 row R of Q against (K, X2); otherwise row R − 2048 of K against (Q, X1). -/
def G (x1 x2 : (⟨3, ![8, 2048, 256]⟩ : Shape).Idx → EReal) (W : (⟨2, ![256, 256]⟩ : Shape).Idx → EReal)
    (b : (⟨1, ![256]⟩ : Shape).Idx → EReal) : (⟨3, ![8, 4096, 256]⟩ : Shape).Idx → EReal :=
  fun j =>
    if h : (j 1).val < 2048 then
      attend scale ninf (proj (slab x1 (j 0)) (mat W) (row b) ⟨(j 1).val, h⟩)
        (proj (slab x2 (j 0)) (mat W) (row b)) (slab x2 (j 0)) (j 2)
    else
      attend scale ninf (proj (slab x2 (j 0)) (mat W) (row b) ⟨(j 1).val - 2048, by have := (j 1).isLt; change (j 1).val < 4096 at this; omega⟩)
        (proj (slab x1 (j 0)) (mat W) (row b)) (slab x1 (j 0)) (j 2)

/-- The result at a row below 2048: the first side attends. -/
theorem G_lo (x1 x2 : (⟨3, ![8, 2048, 256]⟩ : Shape).Idx → EReal) (W : (⟨2, ![256, 256]⟩ : Shape).Idx → EReal)
    (b : (⟨1, ![256]⟩ : Shape).Idx → EReal) (bb : Fin 8) (R : Fin 4096) (e : Fin 256) (h : R.val < 2048) :
    G x1 x2 W b (ix3 bb R e)
      = attend scale ninf (proj (slab x1 bb) (mat W) (row b) ⟨R.val, h⟩) (proj (slab x2 bb) (mat W) (row b)) (slab x2 bb) e :=
  dif_pos h

/-- The result at a row from 2048 on: the second side attends. -/
theorem G_hi (x1 x2 : (⟨3, ![8, 2048, 256]⟩ : Shape).Idx → EReal) (W : (⟨2, ![256, 256]⟩ : Shape).Idx → EReal)
    (b : (⟨1, ![256]⟩ : Shape).Idx → EReal) (bb : Fin 8) (R : Fin 4096) (e : Fin 256) (h : ¬R.val < 2048) :
    G x1 x2 W b (ix3 bb R e)
      = attend scale ninf (proj (slab x2 bb) (mat W) (row b) ⟨R.val - 2048, by have := R.isLt; omega⟩)
          (proj (slab x1 bb) (mat W) (row b)) (slab x1 bb) e :=
  dif_neg h

/-- The maximum of the fold's initial value and the fold is the fold (the host takes this extra maximum). -/
theorem max_init_rowMax (a : EReal) (s : Fin 2048 → EReal) : max a (rowMax a s) = rowMax a s :=
  max_eq_right ((Finset.le_fold_max a).mpr (Or.inl le_rfl))

end Cert.Spec

end
-- ==== Proof.Consts.lean ====
/-
  The float patterns the two programs spell, as the extended reals they denote, and the one equation between them:
  the host computes its scale as 1 / √256, the kernel multiplies by the pattern of 1/16; √256 = 16, so the two are
  the same real number.
-/
import Idealize.ShloMosaic.PureOps.Ideal

noncomputable section

namespace Cert.Consts

open Idealize.ShloMosaic

/-- The pattern of 256.0 denotes the real 256. -/
theorem ofBits_256 : Ideal.ofBits .f32 0x43800000#32 = ((256 : ℝ) : EReal) := by
  simp [Ideal.ofBits, Ideal.ieee, -EReal.coe_mul]; norm_num

/-- The pattern of 1.0 denotes the real 1. -/
theorem ofBits_one : Ideal.ofBits .f32 0x3F800000#32 = ((1 : ℝ) : EReal) := by
  simp [Ideal.ofBits, Ideal.ieee, -EReal.coe_mul]; norm_num

/-- The pattern of 0.0625 denotes the real 1/16. -/
theorem ofBits_sixteenth : Ideal.ofBits .f32 0x3D800000#32 = ((1 / 16 : ℝ) : EReal) := by
  simp [Ideal.ofBits, Ideal.ieee, -EReal.coe_mul]; norm_num

/-- √256 = 16. -/
theorem sqrt_256 : Real.sqrt 256 = 16 := by
  rw [show (256 : ℝ) = 16 ^ 2 by norm_num]
  exact Real.sqrt_sq (by norm_num)

/-- The host's scale 1 / √256 is the kernel's scale, the pattern of 1/16. -/
theorem host_scale :
    Ideal.div (Ideal.ofBits .f32 0x3F800000#32) (Ideal.sqrt (Ideal.ofBits .f32 0x43800000#32))
      = Ideal.ofBits .f32 0x3D800000#32 := by
  rw [ofBits_one, ofBits_256, ofBits_sixteenth]
  have h : Ideal.sqrt ((256 : ℝ) : EReal) = ((16 : ℝ) : EReal) := by
    show (if (256 : ℝ) < 0 then (⊥ : EReal) else (Real.sqrt 256 : EReal)) = _
    rw [if_neg (by norm_num), sqrt_256]
  rw [h, Ideal.div_coe (by norm_num : (16 : ℝ) ≠ 0), ← EReal.coe_mul]
  norm_num

end Cert.Consts

end
-- ==== Proof.RefSide.lean ====
/-
  The reference read at an index: its result array is the specification's function `Spec.G` of the four arguments.

  Stage by stage, for a batch bb: the two dense projections are `Spec.proj` of the slabs; the scale 1/√256 is the
  pattern of 1/16; the scores are `Spec.score`; the host's row maximum (a fold of max from −∞, then one more maximum
  with −∞) is `Spec.rowMax`; the exponentials divided by their row sum (the host's sum starts from 0) are
  `Spec.weight`; the last product is `Spec.attend`; the concatenation along the rows picks the side by the row.
-/
import proofs.«104078_j10969346474178_2_alg».proof.Proof.RefReadP
import proofs.«104078_j10969346474178_2_alg».proof.Proof.Spec
import proofs.«104078_j10969346474178_2_alg».proof.Proof.Consts
import Idealize.ShloMosaic.Lib.Pipeline.Value
import Idealize.ShloMosaic.Lib.ValueIdx
import Idealize.ShloMosaic.PureOps.Ideal.Laws

noncomputable section

namespace Cert.RefSide

open Cert.ReferenceIdeal Cert.ReferenceIdeal.Gen Cert.ReferenceIdeal.ReadP Idealize.ShloMosaic Idealize.ShloMosaic.ValueIdx Cert.Spec

variable (a a' : (⟨S8x2048x256, .f32⟩ : BufTy).Contents (Elt Ideal)) (W : (⟨S256x256, .f32⟩ : BufTy).Contents (Elt Ideal))
  (b : (⟨S256, .f32⟩ : BufTy).Contents (Elt Ideal))

/-! ## The index maps at coordinates -/

theorem lidx_v0 (bb : Fin 8) (r : Fin 2048) (f k : Fin 256) : lidx_main_v0 (ix3 bb r f) k = ix3 bb r k :=
  funext fun ax => match ax with | ⟨0, _⟩ => rfl | ⟨1, _⟩ => rfl | ⟨2, _⟩ => rfl
theorem ridx_v0 (bb : Fin 8) (r : Fin 2048) (f k : Fin 256) : ridx_main_v0 (ix3 bb r f) k = ix2 k f :=
  funext fun ax => match ax with | ⟨0, _⟩ => rfl | ⟨1, _⟩ => rfl
theorem idx_v12 (bb : Fin 8) (r : Fin 2048) (f : Fin 256) : idx_main_v1 (idx_main_v2 (ix3 bb r f)) = ix1 f :=
  funext fun ax => match ax with | ⟨0, _⟩ => rfl
theorem lidx_v10 (bb : Fin 8) (r t : Fin 2048) (k : Fin 256) : lidx_main_v10 (ix3 bb r t) k = ix3 bb r k :=
  funext fun ax => match ax with | ⟨0, _⟩ => rfl | ⟨1, _⟩ => rfl | ⟨2, _⟩ => rfl
theorem ridx_v10 (bb : Fin 8) (r t : Fin 2048) (k : Fin 256) : ridx_main_v10 (ix3 bb r t) k = ix3 bb t k :=
  funext fun ax => match ax with | ⟨0, _⟩ => rfl | ⟨1, _⟩ => rfl | ⟨2, _⟩ => rfl
theorem idx_v1617 (bb : Fin 8) (r t : Fin 2048) : idx_main_v16 (idx_main_v17 (ix3 bb r t)) = ix2 bb r :=
  funext fun ax => match ax with | ⟨0, _⟩ => rfl | ⟨1, _⟩ => rfl
theorem idx_v20 (bb : Fin 8) (r k : Fin 2048) : idx_main_v20 (ix2 bb r) k = ix3 bb r k :=
  funext fun ax => match ax with | ⟨0, _⟩ => rfl | ⟨1, _⟩ => rfl | ⟨2, _⟩ => rfl
theorem lidx_v24 (bb : Fin 8) (r : Fin 2048) (e : Fin 256) (k : Fin 2048) : lidx_main_v24 (ix3 bb r e) k = ix3 bb r k :=
  funext fun ax => match ax with | ⟨0, _⟩ => rfl | ⟨1, _⟩ => rfl | ⟨2, _⟩ => rfl
theorem ridx_v24 (bb : Fin 8) (r : Fin 2048) (e : Fin 256) (k : Fin 2048) : ridx_main_v24 (ix3 bb r e) k = ix3 bb k e :=
  funext fun ax => match ax with | ⟨0, _⟩ => rfl | ⟨1, _⟩ => rfl | ⟨2, _⟩ => rfl

/-- The reduced axis put back: the index a row (bb, r) lifts to at position t of the reduced axis is (bb, r, t). -/
theorem lift_row (hred : S8x2048x2048.Reduces [2] S8x2048) (bb : Fin 8) (r t : Fin 2048) :
    hred.lift (ix2 bb r) t = ix3 bb r t :=
  funext fun ax => Fin.ext (by match ax with | ⟨0, _⟩ => rfl | ⟨1, _⟩ => rfl | ⟨2, _⟩ => rfl)

/-! ## The shared stages -/

/-- The first projection (the host's einsum plus the broadcast bias). -/
theorem q_apply (bb : Fin 8) (r : Fin 2048) (f : Fin 256) :
    val_main_v3 (F := Ideal) a W b (ix3 bb r f) = proj (slab a bb) (mat W) (row b) r f := by
  rw [val_main_v3_apply, val_main_v0_apply, val_main_v2_apply, val_main_v1_apply]
  simp only [lidx_v0, ridx_v0, idx_v12]
  rfl

/-- The second projection: the same operations on the second input. -/
theorem k_apply (bb : Fin 8) (r : Fin 2048) (f : Fin 256) :
    val_main_v7 (F := Ideal) a' W b (ix3 bb r f) = proj (slab a' bb) (mat W) (row b) r f := by
  rw [val_main_v7_apply, val_main_v4_apply, val_main_v6_apply, val_main_v5_apply]
  simp only [show ∀ k, lidx_main_v4 (ix3 bb r f) k = ix3 bb r k from lidx_v0 bb r f,
    show ∀ k, ridx_main_v4 (ix3 bb r f) k = ix2 k f from ridx_v0 bb r f,
    show idx_main_v5 (idx_main_v6 (ix3 bb r f)) = ix1 f from idx_v12 bb r f]
  rfl

/-- The host's scale 1 / √256 is the pattern of 1/16. -/
theorem scale_apply (i : S_.Idx) : val_main_v9 (F := Ideal) i = scale :=
  Cert.Consts.host_scale

/-! ## The first side attends: rows of Q against K, values X2 -/

abbrev sA (bb : Fin 8) (r : Fin 2048) : Fin 2048 → EReal :=
  score scale (proj (slab a bb) (mat W) (row b) r) (proj (slab a' bb) (mat W) (row b))

theorem scoreA_apply (bb : Fin 8) (r t : Fin 2048) :
    val_main_v12 (F := Ideal) a a' W b (ix3 bb r t) = sA a a' W b bb r t := by
  rw [val_main_v12_apply, val_main_v10_apply, val_main_v11_apply, scale_apply]
  simp only [lidx_v10, ridx_v10, q_apply, k_apply]
  rfl

theorem maxA_apply (bb : Fin 8) (r : Fin 2048) :
    val_main_v15 (F := Ideal) a a' W b (ix2 bb r) = rowMax ninf (sA a a' W b bb r) := by
  have hred : S8x2048x2048.Reduces [2] S8x2048 := by decide
  have h13 : val_main_v13 (F := Ideal) a a' W b (ix2 bb r) = rowMax ninf (sA a a' W b bb r) := by
    unfold val_main_v13
    refine (Host.reduce_eq_fold_single (max : EReal → EReal → EReal) _ _ reducesTo_S8x2048x2048_S8x2048_d2 hred h_S_
      (ix2 bb r)).trans ?_
    show (Finset.univ : Finset (Fin 2048)).fold max ninf
        (fun t : Fin 2048 => val_main_v12 (F := Ideal) a a' W b (hred.lift (ix2 bb r) t)) = _
    unfold rowMax
    refine congrArg (fun g => (Finset.univ : Finset (Fin 2048)).fold max ninf g) (funext fun (t : Fin 2048) => ?_)
    rw [lift_row, scoreA_apply]
  rw [val_main_v15_apply, h13]
  exact max_init_rowMax _ _

theorem expA_apply (bb : Fin 8) (r t : Fin 2048) :
    val_main_v19 (F := Ideal) a a' W b (ix3 bb r t)
      = Ideal.exp (sA a a' W b bb r t - rowMax ninf (sA a a' W b bb r)) := by
  rw [val_main_v19_apply, val_main_v18_apply, val_main_v17_apply, val_main_v16_apply, idx_v1617, maxA_apply,
    scoreA_apply]
  rfl

theorem weightA_apply (bb : Fin 8) (r t : Fin 2048) :
    val_main_v23 (F := Ideal) a a' W b (ix3 bb r t) = weight ninf (sA a a' W b bb r) t := by
  rw [val_main_v23_apply, val_main_v22_apply, val_main_v21_apply, show idx_main_v21 (idx_main_v22 (ix3 bb r t)) = ix2 bb r from idx_v1617 bb r t,
    val_main_v20_apply, expA_apply]
  simp only [idx_v20, expA_apply]
  show Ideal.div _ (Ideal.ofBits .f32 0x00000000#32 + _) = _
  rw [Ideal.ofBits_zero_f32, zero_add]
  rfl

theorem outA_apply (bb : Fin 8) (r : Fin 2048) (e : Fin 256) :
    val_main_v24 (F := Ideal) a a' W b (ix3 bb r e)
      = attend scale ninf (proj (slab a bb) (mat W) (row b) r) (proj (slab a' bb) (mat W) (row b)) (slab a' bb) e := by
  rw [val_main_v24_apply]
  simp only [lidx_v24, ridx_v24, weightA_apply]
  rfl

/-! ## The second side attends: rows of K against Q, values X1 -/

abbrev sB (bb : Fin 8) (r : Fin 2048) : Fin 2048 → EReal :=
  score scale (proj (slab a' bb) (mat W) (row b) r) (proj (slab a bb) (mat W) (row b))

theorem scoreB_apply (bb : Fin 8) (r t : Fin 2048) :
    val_main_v27 (F := Ideal) a a' W b (ix3 bb r t) = sB a a' W b bb r t := by
  rw [val_main_v27_apply, val_main_v25_apply, val_main_v26_apply, scale_apply]
  simp only [show ∀ k, lidx_main_v25 (ix3 bb r t) k = ix3 bb r k from lidx_v10 bb r t,
    show ∀ k, ridx_main_v25 (ix3 bb r t) k = ix3 bb t k from ridx_v10 bb r t, q_apply, k_apply]
  rfl

theorem maxB_apply (bb : Fin 8) (r : Fin 2048) :
    val_main_v30 (F := Ideal) a a' W b (ix2 bb r) = rowMax ninf (sB a a' W b bb r) := by
  have hred : S8x2048x2048.Reduces [2] S8x2048 := by decide
  have h28 : val_main_v28 (F := Ideal) a a' W b (ix2 bb r) = rowMax ninf (sB a a' W b bb r) := by
    unfold val_main_v28
    refine (Host.reduce_eq_fold_single (max : EReal → EReal → EReal) _ _ reducesTo_S8x2048x2048_S8x2048_d2 hred h_S_
      (ix2 bb r)).trans ?_
    show (Finset.univ : Finset (Fin 2048)).fold max ninf
        (fun t : Fin 2048 => val_main_v27 (F := Ideal) a a' W b (hred.lift (ix2 bb r) t)) = _
    unfold rowMax
    refine congrArg (fun g => (Finset.univ : Finset (Fin 2048)).fold max ninf g) (funext fun (t : Fin 2048) => ?_)
    rw [lift_row, scoreB_apply]
  rw [val_main_v30_apply, h28]
  exact max_init_rowMax _ _

theorem expB_apply (bb : Fin 8) (r t : Fin 2048) :
    val_main_v34 (F := Ideal) a a' W b (ix3 bb r t)
      = Ideal.exp (sB a a' W b bb r t - rowMax ninf (sB a a' W b bb r)) := by
  rw [val_main_v34_apply, val_main_v33_apply, val_main_v32_apply, val_main_v31_apply,
    show idx_main_v31 (idx_main_v32 (ix3 bb r t)) = ix2 bb r from idx_v1617 bb r t, maxB_apply, scoreB_apply]
  rfl

theorem weightB_apply (bb : Fin 8) (r t : Fin 2048) :
    val_main_v38 (F := Ideal) a a' W b (ix3 bb r t) = weight ninf (sB a a' W b bb r) t := by
  rw [val_main_v38_apply, val_main_v37_apply, val_main_v36_apply, show idx_main_v36 (idx_main_v37 (ix3 bb r t)) = ix2 bb r from idx_v1617 bb r t,
    val_main_v35_apply, expB_apply]
  simp only [show ∀ k, idx_main_v35 (ix2 bb r) k = ix3 bb r k from idx_v20 bb r, expB_apply]
  show Ideal.div _ (Ideal.ofBits .f32 0x00000000#32 + _) = _
  rw [Ideal.ofBits_zero_f32, zero_add]
  rfl

theorem outB_apply (bb : Fin 8) (r : Fin 2048) (e : Fin 256) :
    val_main_v39 (F := Ideal) a a' W b (ix3 bb r e)
      = attend scale ninf (proj (slab a' bb) (mat W) (row b) r) (proj (slab a bb) (mat W) (row b)) (slab a bb) e := by
  rw [val_main_v39_apply]
  simp only [show ∀ k, lidx_main_v39 (ix3 bb r e) k = ix3 bb r k from lidx_v24 bb r e,
    show ∀ k, ridx_main_v39 (ix3 bb r e) k = ix3 bb k e from ridx_v24 bb r e, weightB_apply]
  rfl

/-! ## The concatenation along the rows -/

/-- The reference's result array is the specification's function of the four arguments. -/
theorem ref_eq : val_main_v40 (F := Ideal) a a' W b = G a a' W b := by
  funext j
  obtain ⟨bb, R, e, rfl⟩ : ∃ (bb : Fin 8) (R : Fin 4096) (e : Fin 256), j = ix3 bb R e := ⟨j 0, j 1, j 2, eq_ix3 j⟩
  unfold val_main_v40
  by_cases h : R.val < 2048
  · rw [G_lo _ _ _ _ bb R e h]
    rw [concatenate_pair_apply_left (t := S8x4096x256) (s₁ := S8x2048x256) (s₂ := S8x2048x256) (1 : Fin 3) _ _ concatenates_S8x2048x256_S8x2048x256_S8x4096x256_d1 (ix3 bb R e) rfl
      (ix3 bb (⟨R.val, h⟩ : Fin 2048) e : S8x2048x256.Idx) (fun ax => match ax with | ⟨0, _⟩ => rfl | ⟨1, _⟩ => rfl | ⟨2, _⟩ => rfl)]
    exact outA_apply a a' W b bb ⟨R.val, h⟩ e
  · rw [G_hi _ _ _ _ bb R e h]
    have hR := R.isLt
    rw [concatenate_pair_apply_right (t := S8x4096x256) (s₁ := S8x2048x256) (s₂ := S8x2048x256) (1 : Fin 3) _ _ concatenates_S8x2048x256_S8x2048x256_S8x4096x256_d1 (ix3 bb R e) rfl rfl
      (ix3 bb (⟨R.val - 2048, by omega⟩ : Fin 2048) e : S8x2048x256.Idx)
      (fun ax hax => match ax with | ⟨0, _⟩ => rfl | ⟨1, _⟩ => absurd rfl hax | ⟨2, _⟩ => rfl)
      (by show R.val - 2048 + 2048 = R.val; omega)]
    exact outB_apply a a' W b bb ⟨R.val - 2048, by omega⟩ e

end Cert.RefSide

end
-- ==== Proof.LibKeepdims.lean ====
/-
  Two layout operations read at an index, for a reduction that keeps its axis as a unit column:
  a vector [a] cast to a column [a, 1], and a column [a, 1] broadcast along the rows of [a, b].
  Together: (broadcast (cast v)) (p, c) = v p — every entry of row p is the row's reduced value.
-/
import Idealize.ShloMosaic.Lib.Pipeline.Value
import Idealize.ShloMosaic.Lib.ValueIdx
import Idealize.ShloMosaic.Lib.ValueLayout

noncomputable section

namespace Cert.LibKeepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector's entry `p` spread along row `p`: the cast to a column followed by the broadcast along the rows. -/
theorem keepdims_apply {a b : ℕ} (x : (⟨1, ![a]⟩ : Shape).Idx → α) (h : (⟨1, ![a]⟩ : Shape).ShapeCasts ⟨2, ![a, 1]⟩)
    (h' : (⟨2, ![a, 1]⟩ : Shape).Broadcasts ⟨2, ![a, b]⟩) (p : Fin a) (c : Fin b) :
    broadcastTo ⟨2, ![a, b]⟩ (shapeCast ⟨2, ![a, 1]⟩ x h) h' (ix2 p c) = x (ix1 p) := by
  rw [broadcastTo_a1_ab_apply, shapeCast_a_a1_apply]

end Cert.LibKeepdims

end
-- ==== Proof.KerPay.lean ====
/-
  The kernel's two payloads read at an index, over the extended reals.

  The projection payload of a [1, 2048, 256] block x, the weight matrix w and the bias row b is, at (r, f),
  (∑ d, x (0, r, d) · w (d, f)) + b f: the matrix product into a zero accumulator, the bias broadcast down the rows.
  The attention payload of a tile of query rows q [256, 256], a value block v [1, 2048, 256] and the key rows k [2048, 256]
  is, at (0, y, e): the scores of row y against every key row, scaled; their row maximum subtracted; exponentials
  divided by their row sum; the weighted sum of the value rows — `Spec.attend`.
  Each stage is stated once over a variable vector, so that the payload is the composition of four named stages.
-/
import proofs.«104078_j10969346474178_2_alg».proof.Proof.Gen.KernelIdeal.Skeleton
import proofs.«104078_j10969346474178_2_alg».proof.Proof.Spec
import proofs.«104078_j10969346474178_2_alg».proof.Proof.LibKeepdims
import Idealize.ShloMosaic.Lib.Pipeline.Value
import Idealize.ShloMosaic.Lib.ValueIdx
import Idealize.ShloMosaic.Lib.ValueLayout
import Idealize.ShloMosaic.PureOps.Ideal.Laws

noncomputable section

namespace Cert.KerPay

open Cert.KernelIdeal Cert.KernelIdeal.Gen Idealize.ShloMosaic Idealize.ShloMosaic.ValueIdx Cert.Spec

/-! ## The three matrix products at an index -/

section Dots

theorem proj_lhs0 (i : S2048x256.Idx) (q : dot_S2048x256_S256x256_S2048x256_1_0_0_1_n_n.contr.Idx) :
    (dot_S2048x256_S256x256_S2048x256_1_0_0_1_n_n.lhsIdx i q 0).val = (i 0).val := by
  unfold DotDims.lhsIdx
  rw [dif_neg (show ¬(0 : Fin S2048x256.rank) ∈ dot_S2048x256_S256x256_S2048x256_1_0_0_1_n_n.lhsBatch by decide),
    dif_pos (show (0 : Fin S2048x256.rank) ∈ dot_S2048x256_S256x256_S2048x256_1_0_0_1_n_n.lhsNonContracting by decide)]
  rfl
theorem proj_lhs1 (i : S2048x256.Idx) (q : dot_S2048x256_S256x256_S2048x256_1_0_0_1_n_n.contr.Idx) :
    (dot_S2048x256_S256x256_S2048x256_1_0_0_1_n_n.lhsIdx i q 1).val = (q ⟨0, by decide⟩).val :=
  dot_S2048x256_S256x256_S2048x256_1_0_0_1_n_n.lhsIdx_val_of_single rfl i q
theorem proj_rhs0 (i : S2048x256.Idx) (q : dot_S2048x256_S256x256_S2048x256_1_0_0_1_n_n.contr.Idx) :
    (dot_S2048x256_S256x256_S2048x256_1_0_0_1_n_n.rhsIdx i q 0).val = (q ⟨0, by decide⟩).val :=
  dot_S2048x256_S256x256_S2048x256_1_0_0_1_n_n.rhsIdx_val_of_single rfl i q
theorem proj_rhs1 (i : S2048x256.Idx) (q : dot_S2048x256_S256x256_S2048x256_1_0_0_1_n_n.contr.Idx) :
    (dot_S2048x256_S256x256_S2048x256_1_0_0_1_n_n.rhsIdx i q 1).val = (i 1).val := by
  unfold DotDims.rhsIdx
  rw [dif_neg (show ¬(1 : Fin S256x256.rank) ∈ dot_S2048x256_S256x256_S2048x256_1_0_0_1_n_n.rhsBatch by decide),
    dif_pos (show (1 : Fin S256x256.rank) ∈ dot_S2048x256_S256x256_S2048x256_1_0_0_1_n_n.rhsNonContracting by decide)]
  rfl

/-- Rows times the weight matrix: at (r, f) the sum over d of x (r, d) · w (d, f). -/
theorem projDot_apply (x : FVec Ideal S2048x256 .bf16) (w : FVec Ideal S256x256 .bf16) (r : Fin 2048) (f : Fin 256) :
    matmul dot_S2048x256_S256x256_S2048x256_1_0_0_1_n_n none x w (constant (F := Ideal) S2048x256 .f32 0x00000000#32) (ix2 r f)
      = ∑ d : Fin 256, x (ix2 r d) * w (ix2 d f) := by
  simp only [matmul]
  rw [Ideal.matmul_constant_zero_apply,
    ← Equiv.sum_comp (contrEquiv1 dot_S2048x256_S256x256_S2048x256_1_0_0_1_n_n 256 rfl rfl).symm]
  refine Finset.sum_congr rfl fun k _ => ?_
  have hk := contrEquiv1_symm_val dot_S2048x256_S256x256_S2048x256_1_0_0_1_n_n 256 rfl rfl k
  have el : dot_S2048x256_S256x256_S2048x256_1_0_0_1_n_n.lhsIdx (ix2 r f)
      ((contrEquiv1 dot_S2048x256_S256x256_S2048x256_1_0_0_1_n_n 256 rfl rfl).symm k) = ix2 r k :=
    funext fun a => Fin.ext (by
      match a with
      | ⟨0, _⟩ => exact proj_lhs0 _ _
      | ⟨1, _⟩ => exact (proj_lhs1 _ _).trans hk)
  have er : dot_S2048x256_S256x256_S2048x256_1_0_0_1_n_n.rhsIdx (ix2 r f)
      ((contrEquiv1 dot_S2048x256_S256x256_S2048x256_1_0_0_1_n_n 256 rfl rfl).symm k) = ix2 k f :=
    funext fun a => Fin.ext (by
      match a with
      | ⟨0, _⟩ => exact (proj_rhs0 _ _).trans hk
      | ⟨1, _⟩ => exact proj_rhs1 _ _)
  rw [el, er]

theorem qk_lhs0 (i : S256x2048.Idx) (q : dot_S256x256_S2048x256_S256x2048_1_1_0_0_n_n.contr.Idx) :
    (dot_S256x256_S2048x256_S256x2048_1_1_0_0_n_n.lhsIdx i q 0).val = (i 0).val := by
  unfold DotDims.lhsIdx
  rw [dif_neg (show ¬(0 : Fin S256x256.rank) ∈ dot_S256x256_S2048x256_S256x2048_1_1_0_0_n_n.lhsBatch by decide),
    dif_pos (show (0 : Fin S256x256.rank) ∈ dot_S256x256_S2048x256_S256x2048_1_1_0_0_n_n.lhsNonContracting by decide)]
  rfl
theorem qk_lhs1 (i : S256x2048.Idx) (q : dot_S256x256_S2048x256_S256x2048_1_1_0_0_n_n.contr.Idx) :
    (dot_S256x256_S2048x256_S256x2048_1_1_0_0_n_n.lhsIdx i q 1).val = (q ⟨0, by decide⟩).val :=
  dot_S256x256_S2048x256_S256x2048_1_1_0_0_n_n.lhsIdx_val_of_single rfl i q
theorem qk_rhs0 (i : S256x2048.Idx) (q : dot_S256x256_S2048x256_S256x2048_1_1_0_0_n_n.contr.Idx) :
    (dot_S256x256_S2048x256_S256x2048_1_1_0_0_n_n.rhsIdx i q 0).val = (i 1).val := by
  unfold DotDims.rhsIdx
  rw [dif_neg (show ¬(0 : Fin S2048x256.rank) ∈ dot_S256x256_S2048x256_S256x2048_1_1_0_0_n_n.rhsBatch by decide),
    dif_pos (show (0 : Fin S2048x256.rank) ∈ dot_S256x256_S2048x256_S256x2048_1_1_0_0_n_n.rhsNonContracting by decide)]
  rfl
theorem qk_rhs1 (i : S256x2048.Idx) (q : dot_S256x256_S2048x256_S256x2048_1_1_0_0_n_n.contr.Idx) :
    (dot_S256x256_S2048x256_S256x2048_1_1_0_0_n_n.rhsIdx i q 1).val = (q ⟨0, by decide⟩).val :=
  dot_S256x256_S2048x256_S256x2048_1_1_0_0_n_n.rhsIdx_val_of_single rfl i q

/-- Query rows against key rows, both contracted along the features: at (y, t) the sum over f of q (y, f) · k (t, f). -/
theorem qkDot_apply (q : FVec Ideal S256x256 .bf16) (k : FVec Ideal S2048x256 .bf16) (y : Fin 256) (t : Fin 2048) :
    matmul dot_S256x256_S2048x256_S256x2048_1_1_0_0_n_n none q k (constant (F := Ideal) S256x2048 .f32 0x00000000#32) (ix2 y t)
      = ∑ f : Fin 256, q (ix2 y f) * k (ix2 t f) := by
  simp only [matmul]
  rw [Ideal.matmul_constant_zero_apply,
    ← Equiv.sum_comp (contrEquiv1 dot_S256x256_S2048x256_S256x2048_1_1_0_0_n_n 256 rfl rfl).symm]
  refine Finset.sum_congr rfl fun j _ => ?_
  have hk := contrEquiv1_symm_val dot_S256x256_S2048x256_S256x2048_1_1_0_0_n_n 256 rfl rfl j
  have el : dot_S256x256_S2048x256_S256x2048_1_1_0_0_n_n.lhsIdx (ix2 y t)
      ((contrEquiv1 dot_S256x256_S2048x256_S256x2048_1_1_0_0_n_n 256 rfl rfl).symm j) = ix2 y j :=
    funext fun a => Fin.ext (by
      match a with
      | ⟨0, _⟩ => exact qk_lhs0 _ _
      | ⟨1, _⟩ => exact (qk_lhs1 _ _).trans hk)
  have er : dot_S256x256_S2048x256_S256x2048_1_1_0_0_n_n.rhsIdx (ix2 y t)
      ((contrEquiv1 dot_S256x256_S2048x256_S256x2048_1_1_0_0_n_n 256 rfl rfl).symm j) = ix2 t j :=
    funext fun a => Fin.ext (by
      match a with
      | ⟨0, _⟩ => exact qk_rhs0 _ _
      | ⟨1, _⟩ => exact (qk_rhs1 _ _).trans hk)
  rw [el, er]

theorem pv_lhs0 (i : S256x256.Idx) (q : dot_S256x2048_S2048x256_S256x256_1_0_0_1_n_n.contr.Idx) :
    (dot_S256x2048_S2048x256_S256x256_1_0_0_1_n_n.lhsIdx i q 0).val = (i 0).val := by
  unfold DotDims.lhsIdx
  rw [dif_neg (show ¬(0 : Fin S256x2048.rank) ∈ dot_S256x2048_S2048x256_S256x256_1_0_0_1_n_n.lhsBatch by decide),
    dif_pos (show (0 : Fin S256x2048.rank) ∈ dot_S256x2048_S2048x256_S256x256_1_0_0_1_n_n.lhsNonContracting by decide)]
  rfl
theorem pv_lhs1 (i : S256x256.Idx) (q : dot_S256x2048_S2048x256_S256x256_1_0_0_1_n_n.contr.Idx) :
    (dot_S256x2048_S2048x256_S256x256_1_0_0_1_n_n.lhsIdx i q 1).val = (q ⟨0, by decide⟩).val :=
  dot_S256x2048_S2048x256_S256x256_1_0_0_1_n_n.lhsIdx_val_of_single rfl i q
theorem pv_rhs0 (i : S256x256.Idx) (q : dot_S256x2048_S2048x256_S256x256_1_0_0_1_n_n.contr.Idx) :
    (dot_S256x2048_S2048x256_S256x256_1_0_0_1_n_n.rhsIdx i q 0).val = (q ⟨0, by decide⟩).val :=
  dot_S256x2048_S2048x256_S256x256_1_0_0_1_n_n.rhsIdx_val_of_single rfl i q
theorem pv_rhs1 (i : S256x256.Idx) (q : dot_S256x2048_S2048x256_S256x256_1_0_0_1_n_n.contr.Idx) :
    (dot_S256x2048_S2048x256_S256x256_1_0_0_1_n_n.rhsIdx i q 1).val = (i 1).val := by
  unfold DotDims.rhsIdx
  rw [dif_neg (show ¬(1 : Fin S2048x256.rank) ∈ dot_S256x2048_S2048x256_S256x256_1_0_0_1_n_n.rhsBatch by decide),
    dif_pos (show (1 : Fin S2048x256.rank) ∈ dot_S256x2048_S2048x256_S256x256_1_0_0_1_n_n.rhsNonContracting by decide)]
  rfl

/-- Weights times value rows: at (y, e) the sum over t of p (y, t) · v (t, e). -/
theorem pvDot_apply (p : FVec Ideal S256x2048 .bf16) (v : FVec Ideal S2048x256 .bf16) (y e : Fin 256) :
    matmul dot_S256x2048_S2048x256_S256x256_1_0_0_1_n_n none p v (constant (F := Ideal) S256x256 .f32 0x00000000#32) (ix2 y e)
      = ∑ t : Fin 2048, p (ix2 y t) * v (ix2 t e) := by
  simp only [matmul]
  rw [Ideal.matmul_constant_zero_apply,
    ← Equiv.sum_comp (contrEquiv1 dot_S256x2048_S2048x256_S256x256_1_0_0_1_n_n 2048 rfl rfl).symm]
  refine Finset.sum_congr rfl fun j _ => ?_
  have hk := contrEquiv1_symm_val dot_S256x2048_S2048x256_S256x256_1_0_0_1_n_n 2048 rfl rfl j
  have el : dot_S256x2048_S2048x256_S256x256_1_0_0_1_n_n.lhsIdx (ix2 y e)
      ((contrEquiv1 dot_S256x2048_S2048x256_S256x256_1_0_0_1_n_n 2048 rfl rfl).symm j) = ix2 y j :=
    funext fun a => Fin.ext (by
      match a with
      | ⟨0, _⟩ => exact pv_lhs0 _ _
      | ⟨1, _⟩ => exact (pv_lhs1 _ _).trans hk)
  have er : dot_S256x2048_S2048x256_S256x256_1_0_0_1_n_n.rhsIdx (ix2 y e)
      ((contrEquiv1 dot_S256x2048_S2048x256_S256x256_1_0_0_1_n_n 2048 rfl rfl).symm j) = ix2 j e :=
    funext fun a => Fin.ext (by
      match a with
      | ⟨0, _⟩ => exact (pv_rhs0 _ _).trans hk
      | ⟨1, _⟩ => exact pv_rhs1 _ _)
  rw [el, er]

end Dots

/-! ## The row reductions at an index -/

/-- The index a row y lifts to at position t of the reduced axis is (y, t). -/
theorem lift_row (y : Fin 256) (t : Fin 2048) : reduces_S256x2048_S256.lift (ix1 y) t = ix2 y t :=
  funext fun ax => Fin.ext (by match ax with | ⟨0, _⟩ => rfl | ⟨1, _⟩ => rfl)

/-- A row's maximum: the fold of max from the pattern of −∞ over the row. -/
theorem rowMax_apply (s : FVec Ideal S256x2048 .f32) (hφ : FKind.Formats .f32)
    (hacc : (0xFF800000#32 : BitVec 32) = 0xFF800000#32) (y : Fin 256) :
    multiReduction .maximumf [1] S256 s 0xFF800000#32 reduces_S256x2048_S256 hφ hacc (ix1 y)
      = rowMax ninf (fun t => s (ix2 y t)) := by
  refine (Ideal.multiReduction_maximumf_single s 0xFF800000#32 reduces_S256x2048_S256 hφ hacc (ix1 y)).trans ?_
  unfold rowMax
  refine congrArg (fun g => (Finset.univ : Finset (Fin 2048)).fold max ninf g) (funext fun t => ?_)
  exact congrArg s (lift_row y t)

/-- A row's sum. -/
theorem rowSum_apply (s : FVec Ideal S256x2048 .f32) (hφ : FKind.Formats .f32)
    (hacc : (0x00000000#32 : BitVec 32) = 0x00000000#32) (y : Fin 256) :
    multiReduction .add [1] S256 s 0x00000000#32 reduces_S256x2048_S256 hφ hacc (ix1 y)
      = ∑ t : Fin 2048, s (ix2 y t) := by
  refine (Ideal.multiReduction_add_single s 0x00000000#32 reduces_S256x2048_S256 hφ hacc (ix1 y)).trans ?_
  exact Finset.sum_congr rfl fun t _ => congrArg s (lift_row y t)

/-! ## The attention payload as four stages -/

/-- The scaled scores of a tile of query rows against the key rows. -/
def scoresV (q : Vec Ideal S256x256 .f32) (k : Vec Ideal S2048x256 .f32) : FVec Ideal S256x2048 .f32 :=
  mulf (matmul dot_S256x256_S2048x256_S256x2048_1_1_0_0_n_n none (truncf .bf16 q bitsLt_bf16_f32) (truncf .bf16 k bitsLt_bf16_f32)
      (constant (F := Ideal) S256x2048 .f32 0x00000000#32))
    (broadcast S256x2048 (Scalar.ofBits (F := Ideal) .f32 0x3D800000#32))

/-- The exponentials of the scores less their row maximum. -/
def expV (s : FVec Ideal S256x2048 .f32) : FVec Ideal S256x2048 .f32 :=
  exp (subf s (broadcastTo S256x2048 (shapeCast S256x1
    (multiReduction .maximumf [1] S256 s 0xFF800000#32 reduces_S256x2048_S256 (.inl rfl) rfl) shapeCasts_S256_S256x1)
    broadcasts_S256x1_S256x2048))

/-- Each row divided by its sum. -/
def normV (p : FVec Ideal S256x2048 .f32) : FVec Ideal S256x2048 .f32 :=
  divf p (broadcastTo S256x2048 (shapeCast S256x1
    (multiReduction .add [1] S256 p 0x00000000#32 reduces_S256x2048_S256 (.inl rfl) rfl) shapeCasts_S256_S256x1)
    broadcasts_S256x1_S256x2048)

/-- The weights times the value rows, with a leading unit axis put back. -/
def outV (p : FVec Ideal S256x2048 .f32) (v : Vec Ideal S1x2048x256 .f32) : FVec Ideal S1x256x256 .f32 :=
  shapeCast S1x256x256 (matmul dot_S256x2048_S2048x256_S256x256_1_0_0_1_n_n none (truncf .bf16 p bitsLt_bf16_f32)
    (truncf .bf16 (shapeCast S2048x256 v shapeCasts_S1x2048x256_S2048x256) bitsLt_bf16_f32)
    (constant (F := Ideal) S256x256 .f32 0x00000000#32)) shapeCasts_S256x256_S1x256x256

/-- The attention payload is the four stages composed. -/
theorem pay4_eq (q : Vec Ideal S256x256 .f32) (v : Vec Ideal S1x2048x256 .f32) (k : Vec Ideal S2048x256 .f32) :
    k0_pay4 (F := Ideal) q v k = outV (normV (expV (scoresV q k))) v := rfl

/-- The second direction's payload is the same function. -/
theorem pay5_eq (q : Vec Ideal S256x256 .f32) (v : Vec Ideal S1x2048x256 .f32) (k : Vec Ideal S2048x256 .f32) :
    k0_pay5 (F := Ideal) q v k = outV (normV (expV (scoresV q k))) v := rfl

theorem scoresV_apply (q : Vec Ideal S256x256 .f32) (k : Vec Ideal S2048x256 .f32) (y : Fin 256) (t : Fin 2048) :
    scoresV q k (ix2 y t) = score scale (fun f => q (ix2 y f)) (fun u f => k (ix2 u f)) t := by
  unfold scoresV
  rw [mulf_apply, qkDot_apply]
  rfl

theorem expV_apply (s : FVec Ideal S256x2048 .f32) (y : Fin 256) (t : Fin 2048) :
    expV s (ix2 y t) = Ideal.exp (s (ix2 y t) - rowMax ninf (fun u => s (ix2 y u))) := by
  unfold expV
  show Ideal.exp (s (ix2 y t) - broadcastTo S256x2048 (shapeCast S256x1 _ shapeCasts_S256_S256x1) broadcasts_S256x1_S256x2048 (ix2 y t)) = _
  rw [Cert.LibKeepdims.keepdims_apply, rowMax_apply]

theorem normV_apply (p : FVec Ideal S256x2048 .f32) (y : Fin 256) (t : Fin 2048) :
    normV p (ix2 y t) = Ideal.div (p (ix2 y t)) (∑ u : Fin 2048, p (ix2 y u)) := by
  unfold normV
  show Ideal.div (p (ix2 y t)) (broadcastTo S256x2048 (shapeCast S256x1 _ shapeCasts_S256_S256x1) broadcasts_S256x1_S256x2048 (ix2 y t)) = _
  rw [Cert.LibKeepdims.keepdims_apply, rowSum_apply]

theorem outV_apply (p : FVec Ideal S256x2048 .f32) (v : Vec Ideal S1x2048x256 .f32) (y e : Fin 256) :
    outV p v (ix3 (0 : Fin 1) y e) = ∑ t : Fin 2048, p (ix2 y t) * v (ix3 (0 : Fin 1) t e) := by
  unfold outV
  rw [shapeCast_ab_1ab_apply, pvDot_apply]
  refine Finset.sum_congr rfl fun t _ => ?_
  rw [truncf_apply, truncf_apply, shapeCast_1ab_ab_apply]

/-- THE ATTENTION PAYLOAD at (0, y, e): row y of the tile attends the key rows, weighting the value rows. -/
theorem pay4_apply (q : Vec Ideal S256x256 .f32) (v : Vec Ideal S1x2048x256 .f32) (k : Vec Ideal S2048x256 .f32) (y e : Fin 256) :
    k0_pay4 (F := Ideal) q v k (ix3 (0 : Fin 1) y e)
      = attend scale ninf (fun f => q (ix2 y f)) (fun u f => k (ix2 u f)) (fun u e' => v (ix3 (0 : Fin 1) u e')) e := by
  rw [pay4_eq, outV_apply]
  unfold attend weight
  refine Finset.sum_congr rfl fun t _ => ?_
  rw [normV_apply, expV_apply]
  simp only [expV_apply, scoresV_apply]

theorem pay5_apply (q : Vec Ideal S256x256 .f32) (v : Vec Ideal S1x2048x256 .f32) (k : Vec Ideal S2048x256 .f32) (y e : Fin 256) :
    k0_pay5 (F := Ideal) q v k (ix3 (0 : Fin 1) y e)
      = attend scale ninf (fun f => q (ix2 y f)) (fun u f => k (ix2 u f)) (fun u e' => v (ix3 (0 : Fin 1) u e')) e :=
  (congrFun (pay5_eq q v k) _).trans ((congrFun (pay4_eq q v k).symm _).trans (pay4_apply q v k y e))

/-! ## The projection payload -/

/-- THE PROJECTION PAYLOAD at (r, f): row r of the block times the weight matrix, plus the bias. -/
theorem pay2_apply (x : Vec Ideal S1x2048x256 .f32) (w : Vec Ideal S256x256 .f32) (b : Vec Ideal S256 .f32) (r : Fin 2048) (f : Fin 256) :
    k0_pay2 (F := Ideal) x w b (ix2 r f)
      = proj (fun r' d => x (ix3 (0 : Fin 1) r' d)) (fun d f' => w (ix2 d f')) (fun f' => b (ix1 f')) r f := by
  unfold k0_pay2 k0_pay1
  rw [shapeCast_self, addf_apply, projDot_apply, broadcastTo_1b_ab_apply, shapeCast_a_1a_apply]
  unfold proj
  refine congrArg (· + b (ix1 f)) (Finset.sum_congr rfl fun d _ => ?_)
  rw [truncf_apply, truncf_apply, shapeCast_1ab_ab_apply]

theorem pay3_apply (x : Vec Ideal S1x2048x256 .f32) (w : Vec Ideal S256x256 .f32) (b : Vec Ideal S256 .f32) (r : Fin 2048) (f : Fin 256) :
    k0_pay3 (F := Ideal) x w b (ix2 r f)
      = proj (fun r' d => x (ix3 (0 : Fin 1) r' d)) (fun d f' => w (ix2 d f')) (fun f' => b (ix1 f')) r f :=
  pay2_apply x w b r f

end Cert.KerPay

end
-- ==== Proof.KerVal.lean ====
/-
  What the kernel's body leaves at each grid point, as values.

  The body has three cases. At the first point of a batch (t ≡ 0 mod 16) it stores the two projections Q = X1·W + b
  and K = X2·W + b into the two scratch buffers and then, reading them back, lets rows 256·qi … of Q attend (K, X2).
  At the other even points it only attends, from the scratch the earlier points left; at the odd points rows of K
  attend (Q, X1). So after EVERY point t of batch bb = t / 16 the scratch buffers hold Q and K of that batch
  (induction along the grid: the first point of a batch writes them, the others keep them), and the output block
  holds the attention rows of the point's tile: block t of `Spec.G`.
-/
import proofs.«104078_j10969346474178_2_alg».proof.Proof.Gen.KernelIdeal.Value
import proofs.«104078_j10969346474178_2_alg».proof.Proof.KerPay
import proofs.«104078_j10969346474178_2_alg».proof.Proof.Spec
import Idealize.ShloMosaic.Lib.Pipeline.Value
import Idealize.ShloMosaic.Lib.ValueIdx
import Idealize.ShloMosaic.Lib.Tactic

noncomputable section

namespace Cert.KerVal

open Cert.KernelIdeal Cert.KernelIdeal.Gen Cert.KernelIdeal.Value Idealize.ShloMosaic Idealize.ShloMosaic.TcCoe Idealize.SL.Sem
open Idealize.ShloMosaic.ValueIdx Cert.Spec Cert.KerPay
open Idealize.ShloMosaic.Pipeline (Dat)

/-! ## The three cases' pieces, read back -/

section Pieces

variable {F : FTy → Type} [FloatOps F]

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- The first point of a batch leaves the first projection in the first scratch buffer. -/
theorem soutA0_eq (c : Dev nD) (i : grid0.Coords) (arg3 : Memref sig .tc .vmem S1x2048x256 .f32) (harg3 : arg3.IsWhole) (arg4 : Memref sig .tc .vmem S1x2048x256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S1x256x256 .f32) (harg7 : arg7.IsWhole) (arg8 : Memref sig .tc .vmem S2048x256 .f32) (harg8 : arg8.IsWhole) (arg9 : Memref sig .tc .vmem S2048x256 .f32) (harg9 : arg9.IsWhole) (hc0 : cond0_0 i) (hc1 : cond0_1 i) (hc2 : ¬cond0_2 i)
    (x0 : Vec F S1x2048x256 .f32) (x1 : Vec F S1x2048x256 .f32) (x2 : Vec F S256x256 .f32) (x3 : Vec F S256 .f32) :
    sout0_A_0 c i arg3 harg3 arg4 harg4 arg5 harg5 arg6 harg6 arg7 harg7 arg8 harg8 arg9 harg9 hc0 hc1 hc2 x0 x1 x2 x3 = k0_pay2 x0 x2 x3 := by
  unfold sout0_A_0
  rw [View.read_writes_eq_canon _ _ _ (scover0_A_0 c i arg3 harg3 arg4 harg4 arg5 harg5 arg6 harg6 arg7 harg7 arg8 harg8 arg9 harg9 hc0 hc1 hc2 x0 x1 x2 x3)]
  unfold kernelRun0_A
  dsimp only
  sl_unfold_run_names
  rw [View.canon_unit_zero hz2]
  simp only [View.readAt_eq_ld, harg3.read_unread, harg5.read_unread, harg6.read_unread,
    View.ld_unit_zero (S := S1x2048x256) hz3, View.ld_unit_zero (S := S256x256) hz2, View.ld_unit_zero (S := S256) hz1]

/-- … and the second projection in the second. -/
theorem soutA1_eq (c : Dev nD) (i : grid0.Coords) (arg3 : Memref sig .tc .vmem S1x2048x256 .f32) (harg3 : arg3.IsWhole) (arg4 : Memref sig .tc .vmem S1x2048x256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S1x256x256 .f32) (harg7 : arg7.IsWhole) (arg8 : Memref sig .tc .vmem S2048x256 .f32) (harg8 : arg8.IsWhole) (arg9 : Memref sig .tc .vmem S2048x256 .f32) (harg9 : arg9.IsWhole) (hc0 : cond0_0 i) (hc1 : cond0_1 i) (hc2 : ¬cond0_2 i)
    (x0 : Vec F S1x2048x256 .f32) (x1 : Vec F S1x2048x256 .f32) (x2 : Vec F S256x256 .f32) (x3 : Vec F S256 .f32) :
    sout0_A_1 c i arg3 harg3 arg4 harg4 arg5 harg5 arg6 harg6 arg7 harg7 arg8 harg8 arg9 harg9 hc0 hc1 hc2 x0 x1 x2 x3 = k0_pay3 x1 x2 x3 := by
  unfold sout0_A_1
  rw [View.read_writes_eq_canon _ _ _ (scover0_A_1 c i arg3 harg3 arg4 harg4 arg5 harg5 arg6 harg6 arg7 harg7 arg8 harg8 arg9 harg9 hc0 hc1 hc2 x0 x1 x2 x3)]
  unfold kernelRun0_A
  dsimp only
  sl_unfold_run_names
  rw [View.canon_unit_zero hz2]
  simp only [View.readAt_eq_ld, harg4.read_unread, harg5.read_unread, harg6.read_unread,
    View.ld_unit_zero (S := S1x2048x256) hz3, View.ld_unit_zero (S := S256x256) hz2, View.ld_unit_zero (S := S256) hz1]

/-- The first point of a batch then attends from the projections it has just stored: a tile of rows of the first
    against the second, weighting the second input's block. -/
theorem outA_eq (c : Dev nD) (i : grid0.Coords) (arg3 : Memref sig .tc .vmem S1x2048x256 .f32) (harg3 : arg3.IsWhole) (arg4 : Memref sig .tc .vmem S1x2048x256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S1x256x256 .f32) (harg7 : arg7.IsWhole) (arg8 : Memref sig .tc .vmem S2048x256 .f32) (harg8 : arg8.IsWhole) (arg9 : Memref sig .tc .vmem S2048x256 .f32) (harg9 : arg9.IsWhole) (hc0 : cond0_0 i) (hc1 : cond0_1 i) (hc2 : ¬cond0_2 i)
    (x0 : Vec F S1x2048x256 .f32) (x1 : Vec F S1x2048x256 .f32) (x2 : Vec F S256x256 .f32) (x3 : Vec F S256 .f32) :
    out0_A_4 c i arg3 harg3 arg4 harg4 arg5 harg5 arg6 harg6 arg7 harg7 arg8 harg8 arg9 harg9 hc0 hc1 hc2 x0 x1 x2 x3
      = k0_pay4 (View.ld (k0_pay2 x0 x2 x3) (Rect.unit (s := S2048x256) (k0_off1 i) S256x256.size (k0_off1_inb i hc1)))
          x1 (k0_pay3 x1 x2 x3) := by
  unfold out0_A_4
  rw [View.read_writes_eq_canon _ _ _ (cover0_A_4 c i arg3 harg3 arg4 harg4 arg5 harg5 arg6 harg6 arg7 harg7 arg8 harg8 arg9 harg9 hc0 hc1 hc2 x0 x1 x2 x3)]
  unfold kernelRun0_A
  dsimp only
  sl_unfold_run_names
  rw [View.canon_unit_zero hz3, View.readAt_writes_junk_eq_canon, View.canon_unit_zero hz2,
    View.readCov_unit_zero (S := S2048x256) _ hz2]
  simp only [View.readAt_eq_ld, harg3.read_unread, harg4.read_unread, harg5.read_unread, harg6.read_unread,
    View.ld_unit_zero (S := S1x2048x256) hz3, View.ld_unit_zero (S := S256x256) hz2, View.ld_unit_zero (S := S256) hz1]

/-- An odd point: a tile of rows of the second scratch attends the first scratch, weighting the first input's block. -/
theorem outB_eq (c : Dev nD) (i : grid0.Coords) (arg3 : Memref sig .tc .vmem S1x2048x256 .f32) (harg3 : arg3.IsWhole) (arg4 : Memref sig .tc .vmem S1x2048x256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S1x256x256 .f32) (harg7 : arg7.IsWhole) (arg8 : Memref sig .tc .vmem S2048x256 .f32) (harg8 : arg8.IsWhole) (arg9 : Memref sig .tc .vmem S2048x256 .f32) (harg9 : arg9.IsWhole) (hc0 : ¬cond0_0 i) (hc1 : ¬cond0_1 i) (hc2 : cond0_2 i)
    (x0 : Vec F S1x2048x256 .f32) (x1 : Vec F S1x2048x256 .f32) (x2 : Vec F S256x256 .f32) (x3 : Vec F S256 .f32)
    (xs0 xs1 : Vec F S2048x256 .f32) :
    out0_B_4 c i arg3 harg3 arg4 harg4 arg5 harg5 arg6 harg6 arg7 harg7 arg8 harg8 arg9 harg9 hc0 hc1 hc2 x0 x1 x2 x3 xs0 xs1
      = k0_pay5 (View.ld xs1 (Rect.unit (s := S2048x256) (k0_off2 i) S256x256.size (k0_off2_inb i hc2))) x0 xs0 := by
  unfold out0_B_4
  rw [View.read_writes_eq_canon _ _ _ (cover0_B_4 c i arg3 harg3 arg4 harg4 arg5 harg5 arg6 harg6 arg7 harg7 arg8 harg8 arg9 harg9 hc0 hc1 hc2 x0 x1 x2 x3 xs0 xs1)]
  unfold kernelRun0_B
  dsimp only
  sl_unfold_run_names
  rw [View.canon_unit_zero hz3]
  simp only [View.readAt_eq_ld, harg3.read_unread, harg8.read_unread, harg9.read_unread,
    View.ld_unit_zero (S := S1x2048x256) hz3, View.ld_unit_zero (S := S2048x256) hz2]

/-- An even point that is not a batch's first: a tile of rows of the first scratch attends the second scratch,
    weighting the second input's block. -/
theorem outC_eq (c : Dev nD) (i : grid0.Coords) (arg3 : Memref sig .tc .vmem S1x2048x256 .f32) (harg3 : arg3.IsWhole) (arg4 : Memref sig .tc .vmem S1x2048x256 .f32) (harg4 : arg4.IsWhole) (arg5 : Memref sig .tc .vmem S256x256 .f32) (harg5 : arg5.IsWhole) (arg6 : Memref sig .tc .vmem S256 .f32) (harg6 : arg6.IsWhole) (arg7 : Memref sig .tc .vmem S1x256x256 .f32) (harg7 : arg7.IsWhole) (arg8 : Memref sig .tc .vmem S2048x256 .f32) (harg8 : arg8.IsWhole) (arg9 : Memref sig .tc .vmem S2048x256 .f32) (harg9 : arg9.IsWhole) (hc0 : ¬cond0_0 i) (hc1 : cond0_1 i) (hc2 : ¬cond0_2 i)
    (x0 : Vec F S1x2048x256 .f32) (x1 : Vec F S1x2048x256 .f32) (x2 : Vec F S256x256 .f32) (x3 : Vec F S256 .f32)
    (xs0 xs1 : Vec F S2048x256 .f32) :
    out0_C_4 c i arg3 harg3 arg4 harg4 arg5 harg5 arg6 harg6 arg7 harg7 arg8 harg8 arg9 harg9 hc0 hc1 hc2 x0 x1 x2 x3 xs0 xs1
      = k0_pay4 (View.ld xs0 (Rect.unit (s := S2048x256) (k0_off1 i) S256x256.size (k0_off1_inb i hc1))) x1 xs1 := by
  unfold out0_C_4
  rw [View.read_writes_eq_canon _ _ _ (cover0_C_4 c i arg3 harg3 arg4 harg4 arg5 harg5 arg6 harg6 arg7 harg7 arg8 harg8 arg9 harg9 hc0 hc1 hc2 x0 x1 x2 x3 xs0 xs1)]
  unfold kernelRun0_C
  dsimp only
  sl_unfold_run_names
  rw [View.canon_unit_zero hz3]
  simp only [View.readAt_eq_ld, harg4.read_unread, harg8.read_unread, harg9.read_unread,
    View.ld_unit_zero (S := S1x2048x256) hz3, View.ld_unit_zero (S := S2048x256) hz2]

/-- A tile of 256 rows of a [2048, 256] array, loaded from row offset o: entry (y, f) is the array's (o + y, f). -/
theorem tile_apply (X : Vec F S2048x256 .f32) (off : Fin 2 → Nat) (h : ∀ a, off a + S256x256.size a ≤ S2048x256.size a)
    (o : Nat) (hoff : off = ![o, 0]) (y f : Fin 256) (k : Fin 2048) (hk : k.val = o + y.val) :
    View.ld X (Rect.unit (s := S2048x256) off S256x256.size h) (ix2 y f) = X (ix2 k f) := by
  subst hoff
  show X ((Rect.unit (s := S2048x256) ![o, 0] S256x256.size h).idx (ix2 y f)) = X (ix2 k f)
  refine congrArg X (funext fun a => Fin.ext ?_)
  match a with
  | ⟨0, _⟩ => show o + 1 * y.val = k.val; omega
  | ⟨1, _⟩ => show 0 + 1 * f.val = f.val; omega

end Pieces

/-! ## The grid: where each point's blocks lie -/

/-- The windows' block indices and the tile offset at each of the 128 points t = 16·bb + 2·qi + d, decided over
    the grid: the inputs at batch bb, the weights and bias at their whole arrays, the output at batch bb and
    row tile 8·d + qi; the tile's row offset in the scratch is 256·qi. -/
theorem grid_facts : ∀ t : Fin cfg0.N,
    win0_0.index t (0 : Fin 3) = t.val / 16 ∧ win0_0.index t (1 : Fin 3) = 0 ∧ win0_0.index t (2 : Fin 3) = 0
    ∧ win0_1.index t (0 : Fin 3) = t.val / 16 ∧ win0_1.index t (1 : Fin 3) = 0 ∧ win0_1.index t (2 : Fin 3) = 0
    ∧ win0_2.index t (0 : Fin 2) = 0 ∧ win0_2.index t (1 : Fin 2) = 0
    ∧ win0_3.index t (0 : Fin 1) = 0
    ∧ win0_4.index t (0 : Fin 3) = t.val / 16 ∧ win0_4.index t (1 : Fin 3) = t.val % 2 * 8 + t.val / 2 % 8
    ∧ win0_4.index t (2 : Fin 3) = 0
    ∧ k0_off1 (grid0.coords t) = ![256 * (t.val / 2 % 8), 0] ∧ k0_off2 (grid0.coords t) = ![256 * (t.val / 2 % 8), 0] :=
  (by decide +kernel : ∀ t : Fin grid0.N, _)

section Values

variable (m : (ℓ : Loc nD τ sig) → Buf (Elt Ideal) ℓ)

/-- The batch of point t. -/
abbrev bbOf (t : Fin cfg0.N) : Fin 8 :=
  ⟨t.val / 16, by have := lt_of_lt_of_eq t.isLt (show cfg0.N = 128 from N_0); omega⟩

/-- The four argument arrays on core c, as the specification takes them. -/
abbrev A0 (c : Dev nD) : S8x2048x256.Idx → EReal := m ((c : Thread nD τ).loc main_arg0)
abbrev A1 (c : Dev nD) : S8x2048x256.Idx → EReal := m ((c : Thread nD τ).loc main_arg1)
abbrev A2 (c : Dev nD) : S256x256.Idx → EReal := m ((c : Thread nD τ).loc main_arg2)
abbrev A3 (c : Dev nD) : S256.Idx → EReal := m ((c : Thread nD τ).loc main_arg3)

/-- The specification's function of core c's argument arrays. -/
abbrev Gm (c : Dev nD) : Buf (Elt Ideal) ((c : Thread nD τ).loc main_v0) := G (A0 m c) (A1 m c) (A2 m c) (A3 m c)

/-- The first input's block at point t is its batch's slab. -/
theorem iblk0_apply (c : Dev nD) (t : Fin cfg0.N) (r : Fin 2048) (d : Fin 256) :
    (iblk m c 0 t : Vec Ideal S1x2048x256 .f32) (ix3 (0 : Fin 1) r d) = slab (A0 m c) (bbOf t) r d := by
  obtain ⟨e0, e1, e2, -⟩ := grid_facts t
  unfold iblk
  rw [View.read_apply]
  show V m c main_arg0 _ = m (c.tc.loc main_arg0) _
  unfold V
  congr 1
  funext a
  apply Fin.ext
  match a with
  | ⟨0, _⟩ => show win0_0.index t (0 : Fin 3) * 1 + 1 * 0 = t.val / 16; rw [e0]; omega
  | ⟨1, _⟩ => show win0_0.index t (1 : Fin 3) * 2048 + 1 * r.val = r.val; rw [e1]; omega
  | ⟨2, _⟩ => show win0_0.index t (2 : Fin 3) * 256 + 1 * d.val = d.val; rw [e2]; omega

/-- The second input's block at point t is its batch's slab. -/
theorem iblk1_apply (c : Dev nD) (t : Fin cfg0.N) (r : Fin 2048) (d : Fin 256) :
    (iblk m c 1 t : Vec Ideal S1x2048x256 .f32) (ix3 (0 : Fin 1) r d) = slab (A1 m c) (bbOf t) r d := by
  obtain ⟨-, -, -, e0, e1, e2, -⟩ := grid_facts t
  unfold iblk
  rw [View.read_apply]
  show V m c main_arg1 _ = m (c.tc.loc main_arg1) _
  unfold V
  congr 1
  funext a
  apply Fin.ext
  match a with
  | ⟨0, _⟩ => show win0_1.index t (0 : Fin 3) * 1 + 1 * 0 = t.val / 16; rw [e0]; omega
  | ⟨1, _⟩ => show win0_1.index t (1 : Fin 3) * 2048 + 1 * r.val = r.val; rw [e1]; omega
  | ⟨2, _⟩ => show win0_1.index t (2 : Fin 3) * 256 + 1 * d.val = d.val; rw [e2]; omega

/-- The weight window's block is the weight matrix. -/
theorem iblk2_apply (c : Dev nD) (t : Fin cfg0.N) (d f : Fin 256) :
    (iblk m c 2 t : Vec Ideal S256x256 .f32) (ix2 d f) = mat (A2 m c) d f := by
  obtain ⟨-, -, -, -, -, -, e0, e1, -⟩ := grid_facts t
  unfold iblk
  rw [View.read_apply]
  show V m c main_arg2 _ = m (c.tc.loc main_arg2) _
  unfold V
  congr 1
  funext a
  apply Fin.ext
  match a with
  | ⟨0, _⟩ => show win0_2.index t (0 : Fin 2) * 256 + 1 * d.val = d.val; rw [e0]; omega
  | ⟨1, _⟩ => show win0_2.index t (1 : Fin 2) * 256 + 1 * f.val = f.val; rw [e1]; omega

/-- The bias window's block is the bias row. -/
theorem iblk3_apply (c : Dev nD) (t : Fin cfg0.N) (f : Fin 256) :
    (iblk m c 3 t : Vec Ideal S256 .f32) (ix1 f) = row (A3 m c) f := by
  obtain ⟨-, -, -, -, -, -, -, -, e0, -⟩ := grid_facts t
  unfold iblk
  rw [View.read_apply]
  show V m c main_arg3 _ = m (c.tc.loc main_arg3) _
  unfold V
  congr 1
  funext a
  apply Fin.ext
  match a with
  | ⟨0, _⟩ => show win0_3.index t (0 : Fin 1) * 256 + 1 * f.val = f.val; rw [e0]; omega

/-- The two projections of batch bb, as [2048, 256] arrays. -/
def Qarr (c : Dev nD) (bb : Fin 8) : Vec Ideal S2048x256 .f32 :=
  fun j => proj (slab (A0 m c) bb) (mat (A2 m c)) (row (A3 m c)) ⟨(j 0).val, idx2_lt0 j⟩ ⟨(j 1).val, idx2_lt1 j⟩
def Karr (c : Dev nD) (bb : Fin 8) : Vec Ideal S2048x256 .f32 :=
  fun j => proj (slab (A1 m c) bb) (mat (A2 m c)) (row (A3 m c)) ⟨(j 0).val, idx2_lt0 j⟩ ⟨(j 1).val, idx2_lt1 j⟩

theorem Qarr_apply (c : Dev nD) (bb : Fin 8) (r : Fin 2048) (f : Fin 256) :
    Qarr m c bb (ix2 r f) = proj (slab (A0 m c) bb) (mat (A2 m c)) (row (A3 m c)) r f := rfl
theorem Karr_apply (c : Dev nD) (bb : Fin 8) (r : Fin 2048) (f : Fin 256) :
    Karr m c bb (ix2 r f) = proj (slab (A1 m c) bb) (mat (A2 m c)) (row (A3 m c)) r f := rfl

/-- The projection payload of the first input's block at t is the first projection of t's batch. -/
theorem pay2_iblk (c : Dev nD) (t : Fin cfg0.N) :
    k0_pay2 (F := Ideal) (iblk m c 0 t) (iblk m c 2 t) (iblk m c 3 t) = Qarr m c (bbOf t) := by
  funext j
  obtain ⟨r, f, rfl⟩ : ∃ (r : Fin 2048) (f : Fin 256), j = ix2 r f := ⟨j 0, j 1, eq_ix2 j⟩
  refine (pay2_apply (iblk m c 0 t) (iblk m c 2 t) (iblk m c 3 t) r f).trans ?_
  rw [Qarr_apply]
  simp only [iblk0_apply, iblk2_apply, iblk3_apply]

/-- … and of the second input's block, the second projection. -/
theorem pay3_iblk (c : Dev nD) (t : Fin cfg0.N) :
    k0_pay3 (F := Ideal) (iblk m c 1 t) (iblk m c 2 t) (iblk m c 3 t) = Karr m c (bbOf t) := by
  funext j
  obtain ⟨r, f, rfl⟩ : ∃ (r : Fin 2048) (f : Fin 256), j = ix2 r f := ⟨j 0, j 1, eq_ix2 j⟩
  refine (pay3_apply (iblk m c 1 t) (iblk m c 2 t) (iblk m c 3 t) r f).trans ?_
  rw [Karr_apply]
  simp only [iblk1_apply, iblk2_apply, iblk3_apply]

/-! ## The scratch after every point: the projections of the point's batch -/

/-- After point n the two scratch buffers hold the two projections of batch n / 16: the batch's first point stores
    them, every other point keeps what the point before left, and the point before is in the same batch. -/
theorem scratch_eq (c : Dev nD) : ∀ (n : ℕ) (hn : n < cfg0.N),
    (outsAt0 m c n hn).2.1 = Qarr m c (bbOf ⟨n, hn⟩) ∧ (outsAt0 m c n hn).2.2 = Karr m c (bbOf ⟨n, hn⟩)
  | 0, hn => by
    rw [outsAt0_A m c ⟨0, hn⟩ rfl rfl (by show ¬(0 % 2 = 1); decide)]
    dsimp only
    rw [soutA0_eq, soutA1_eq]
    exact ⟨pay2_iblk m c ⟨0, hn⟩, pay3_iblk m c ⟨0, hn⟩⟩
  | n + 1, hn => by
    have hN : n + 1 < 128 := lt_of_lt_of_eq hn (show cfg0.N = 128 from N_0)
    have ih := scratch_eq c n (Nat.lt_of_succ_lt hn)
    by_cases h0 : (n + 1) % 16 = 0
    · have h1 : (n + 1) % 2 = 0 := by omega
      have h2 : ¬(n + 1) % 2 = 1 := by omega
      rw [outsAt0_A m c ⟨n + 1, hn⟩ h0 h1 h2]
      dsimp only
      rw [soutA0_eq, soutA1_eq]
      exact ⟨pay2_iblk m c ⟨n + 1, hn⟩, pay3_iblk m c ⟨n + 1, hn⟩⟩
    · have hb : bbOf (⟨n + 1, hn⟩ : Fin cfg0.N) = bbOf ⟨n, Nat.lt_of_succ_lt hn⟩ := Fin.ext (by show (n + 1) / 16 = n / 16; omega)
      rw [hb]
      by_cases h1 : (n + 1) % 2 = 0
      · have h2 : ¬(n + 1) % 2 = 1 := by omega
        rw [outsAt0_C m c ⟨n + 1, hn⟩ h0 h1 h2]
        exact ih
      · have h2 : (n + 1) % 2 = 1 := by omega
        rw [outsAt0_B m c ⟨n + 1, hn⟩ h0 h1 h2]
        exact ih

end Values

section Output

variable (m : (ℓ : Loc nD τ sig) → Buf (Elt Ideal) ℓ)

/-- Attention of equal rows, keys and values is equal. -/
theorem attend_congr {c n : EReal} {q q' : Fin 256 → EReal} {k k' v v' : Fin 2048 → Fin 256 → EReal} (e : Fin 256)
    (hq : q = q') (hk : k = k') (hv : v = v') : attend c n q k v e = attend c n q' k' v' e := by
  subst hq; subst hk; subst hv; rfl

/-- An even point's attention, from the scratch holding the batch's projections: rows 256·qi + y of Q attend (K, X2):
    row (t / 2 mod 8)·256 + y of batch bb of the specification. -/
theorem attA (c : Dev nD) (t : Fin cfg0.N) (h1 : t.val % 2 = 0)
    (hin : ∀ a, (k0_off1 (grid0.coords t)) a + S256x256.size a ≤ S2048x256.size a) (y e : Fin 256)
    (R : Fin 4096) (hR : R.val = (t.val % 2 * 8 + t.val / 2 % 8) * 256 + y.val) :
    k0_pay4 (F := Ideal) (View.ld (Qarr m c (bbOf t)) (Rect.unit (s := S2048x256) (k0_off1 (grid0.coords t)) S256x256.size hin))
        (iblk m c 1 t) (Karr m c (bbOf t)) (ix3 (0 : Fin 1) y e)
      = Gm m c (ix3 (bbOf t) R e) := by
  have hN : t.val < 128 := lt_of_lt_of_eq t.isLt (show cfg0.N = 128 from N_0)
  obtain ⟨-, -, -, -, -, -, -, -, -, -, -, -, eoff, -⟩ := grid_facts t
  have hlt : R.val < 2048 := by omega
  refine (pay4_apply _ _ _ y e).trans ?_
  refine Eq.trans ?_ (G_lo (A0 m c) (A1 m c) (A2 m c) (A3 m c) (bbOf t) R e hlt).symm
  refine attend_congr e (funext fun f => ?_) (funext fun u => funext fun f => ?_) (funext fun u => funext fun e' => ?_)
  · rw [tile_apply _ _ hin (256 * (t.val / 2 % 8)) eoff y f ⟨R.val, hlt⟩ (by show R.val = _; omega), Qarr_apply]
  · rw [Karr_apply]
  · rw [iblk1_apply]

/-- An odd point's attention: rows 256·qi + y of K attend (Q, X1): row 2048 + (t / 2 mod 8)·256 + y of batch bb. -/
theorem attB (c : Dev nD) (t : Fin cfg0.N) (h2 : t.val % 2 = 1)
    (hin : ∀ a, (k0_off2 (grid0.coords t)) a + S256x256.size a ≤ S2048x256.size a) (y e : Fin 256)
    (R : Fin 4096) (hR : R.val = (t.val % 2 * 8 + t.val / 2 % 8) * 256 + y.val) :
    k0_pay5 (F := Ideal) (View.ld (Karr m c (bbOf t)) (Rect.unit (s := S2048x256) (k0_off2 (grid0.coords t)) S256x256.size hin))
        (iblk m c 0 t) (Qarr m c (bbOf t)) (ix3 (0 : Fin 1) y e)
      = Gm m c (ix3 (bbOf t) R e) := by
  have hN : t.val < 128 := lt_of_lt_of_eq t.isLt (show cfg0.N = 128 from N_0)
  obtain ⟨-, -, -, -, -, -, -, -, -, -, -, -, -, eoff⟩ := grid_facts t
  have hge : ¬R.val < 2048 := by omega
  refine (pay5_apply _ _ _ y e).trans ?_
  refine Eq.trans ?_ (G_hi (A0 m c) (A1 m c) (A2 m c) (A3 m c) (bbOf t) R e hge).symm
  refine attend_congr e (funext fun f => ?_) (funext fun u => funext fun f => ?_) (funext fun u => funext fun e' => ?_)
  · rw [tile_apply _ _ hin (256 * (t.val / 2 % 8)) eoff y f ⟨R.val - 2048, by have := R.isLt; omega⟩ (by show R.val - 2048 = _; omega), Karr_apply]
  · rw [Qarr_apply]
  · rw [iblk0_apply]

/-- The point before a point that is not its batch's first is in the same batch. -/
theorem bbOf_pred (t : Fin cfg0.N) (h0 : ¬t.val % 16 = 0) (hlt : t.val - 1 < cfg0.N) :
    bbOf (⟨t.val - 1, hlt⟩ : Fin cfg0.N) = bbOf t := Fin.ext (by show (t.val - 1) / 16 = t.val / 16; omega)

/-- THE OUTPUT BLOCK after point t: at (0, y, e) it holds row (8·d + qi)·256 + y of batch bb of the specification. -/
theorem out_eq (c : Dev nD) (t : Fin cfg0.N) (y e : Fin 256) :
    (outsAt0 m c t.val t.isLt).1 (ix3 (0 : Fin 1) y e)
      = Gm m c (ix3 (bbOf t) ⟨(t.val % 2 * 8 + t.val / 2 % 8) * 256 + y.val, by
          have := lt_of_lt_of_eq t.isLt (show cfg0.N = 128 from N_0); have := y.isLt; omega⟩ e) := by
  have hN : t.val < 128 := lt_of_lt_of_eq t.isLt (show cfg0.N = 128 from N_0)
  by_cases h0 : t.val % 16 = 0
  · have h1 : t.val % 2 = 0 := by omega
    have h2 : ¬t.val % 2 = 1 := by omega
    rw [outsAt0_A m c t h0 h1 h2]
    dsimp only
    rw [outA_eq, pay2_iblk, pay3_iblk]
    exact attA m c t h1 _ y e _ rfl
  · have hlt : t.val - 1 < cfg0.N := Nat.lt_of_le_of_lt (Nat.sub_le _ _) t.isLt
    obtain ⟨ihQ, ihK⟩ := scratch_eq m c (t.val - 1) hlt
    rw [bbOf_pred t h0 hlt] at ihQ ihK
    by_cases h1 : t.val % 2 = 0
    · have h2 : ¬t.val % 2 = 1 := by omega
      rw [outsAt0_C m c t h0 h1 h2]
      dsimp only
      rw [outC_eq, ihQ, ihK]
      exact attA m c t h1 _ y e _ rfl
    · have h2 : t.val % 2 = 1 := by omega
      rw [outsAt0_B m c t h0 h1 h2]
      dsimp only
      rw [outB_eq, ihQ, ihK]
      exact attB m c t h2 _ y e _ rfl

end Output

end Cert.KerVal

end
-- ==== Proof.KerArr.lean ====
/-
  From blocks to the array: the kernel's result array is the specification's function of the four arguments.

  The grid has 128 points t = 16·bb + 2·qi + d: batch bb, row tile qi, direction d. The two input windows stage the
  batch's slabs, the weight and bias windows their whole arrays, and the output window's block at t is rows
  (8·d + qi)·256 … +255 of batch bb. Given what the body leaves in the output's staging buffer at each point
  (`KerVal.out_eq`: block t of `Spec.G`), every write-back writes block t of `Spec.G`; the 128 blocks tile the
  [8, 4096, 256] array (row R of batch bb lies in the block of the point 16·bb + 2·((R / 256) mod 8) + R / 2048),
  so the array ends holding `Spec.G`.
-/
import proofs.«104078_j10969346474178_2_alg».proof.Proof.KerVal

noncomputable section

namespace Cert.KerArr

open Cert.KernelIdeal Cert.KernelIdeal.Gen Cert.KernelIdeal.Value Idealize.ShloMosaic Idealize.ShloMosaic.TcCoe Idealize.SL.Sem
open Idealize.ShloMosaic.ValueIdx Cert.Spec Cert.KerVal
open Idealize.ShloMosaic.Pipeline (Dat)

variable (m : (ℓ : Loc nD τ sig) → Buf (Elt Ideal) ℓ) (ρ : Dev nD → PrngReg)

/-- WHAT POINT t WRITES BACK is block t of the specification's function of the arguments. -/
theorem flushed_eq (c : Dev nD) (t : Fin cfg0.N) :
    (dats m 0 c).flushed 4 t = ((cfg0.win 4).blk t).view.read (Elt Ideal) (Gm m c) := by
  rw [flushed4]
  funext y
  obtain ⟨u, yy, e, rfl⟩ : ∃ (u : Fin 1) (yy : Fin 256) (e : Fin 256), y = ix3 u yy e := ⟨y 0, y 1, y 2, eq_ix3 y⟩
  rw [View.read_apply]
  show (outsAt0 m c t.val t.isLt).1 (ix3 u yy e) = Gm m c (((cfg0.win 4).blk t).view.emb (ix3 u yy e))
  have hu : u = (0 : Fin 1) := Fin.ext (by omega)
  subst hu
  rw [out_eq m c t yy e]
  have hN : t.val < 128 := lt_of_lt_of_eq t.isLt (show cfg0.N = 128 from N_0)
  obtain ⟨-, -, -, -, -, -, -, -, -, e0, e1, e2, -⟩ := grid_facts t
  refine congrArg (Gm m c) (funext fun a => Fin.ext ?_)
  match a with
  | ⟨0, _⟩ => show t.val / 16 = win0_4.index t (0 : Fin 3) * 1 + 1 * 0; rw [e0]; omega
  | ⟨1, _⟩ => show (t.val % 2 * 8 + t.val / 2 % 8) * 256 + yy.val = win0_4.index t (1 : Fin 3) * 256 + 1 * yy.val; rw [e1]; omega
  | ⟨2, _⟩ => show e.val = win0_4.index t (2 : Fin 3) * 256 + 1 * e.val; rw [e2]; omega

/-- An index of the array is in point t's block iff each coordinate is in the block's range on its axis. -/
theorem mem_blk (t : Fin cfg0.N) (i : S8x4096x256.Idx) :
    i ∈ ((cfg0.win 4).blk t).view.set ↔ ∀ a : Fin 3, win0_4.index t a * S1x256x256.size a ≤ (i a).val ∧ (i a).val < win0_4.index t a * S1x256x256.size a + S1x256x256.size a := by
  show i ∈ ((View.whole main_v0).slice (win0_4.rect t)).set ↔ _
  rw [View.set_slice_whole, Rect.mem_set_unit]
  exact Iff.rfl

/-- Every index of the array lies in some point's block. -/
theorem cover (i : S8x4096x256.Idx) :
    ∃ t : Fin cfg0.N, (cfg0.win 4).flush t = true ∧ i ∈ ((cfg0.win 4).blk t).view.set := by
  have h0 : (i 0).val < 8 := (i 0).isLt
  have h1 : (i 1).val < 4096 := (i 1).isLt
  have h2 : (i 2).val < 256 := (i 2).isLt
  have hN : cfg0.N = 128 := N_0
  obtain ⟨t, ht⟩ : ∃ t : Fin cfg0.N, t.val = 16 * (i 0).val + 2 * ((i 1).val / 256 % 8) + (i 1).val / 2048 :=
    ⟨⟨16 * (i 0).val + 2 * ((i 1).val / 256 % 8) + (i 1).val / 2048, by rw [hN]; omega⟩, rfl⟩
  refine ⟨t, flush0_4 t, ?_⟩
  rw [mem_blk]
  obtain ⟨-, -, -, -, -, -, -, -, -, e0, e1, e2, -⟩ := grid_facts t
  have hk : (i 1).val / 256 / 8 = (i 1).val / 2048 := Nat.div_div_eq_div_mul _ _ _
  have hd : t.val % 2 = (i 1).val / 2048 := by omega
  have hq : t.val / 2 % 8 = (i 1).val / 256 % 8 := by omega
  have hrow : (t.val % 2 * 8 + t.val / 2 % 8) * 256 ≤ (i 1).val ∧ (i 1).val < (t.val % 2 * 8 + t.val / 2 % 8) * 256 + 256 := by
    rw [hd, hq, ← hk]; omega
  intro a
  match a with
  | ⟨0, _⟩ => show win0_4.index t (0 : Fin 3) * 1 ≤ (i 0).val ∧ (i 0).val < win0_4.index t (0 : Fin 3) * 1 + 1; rw [e0]; omega
  | ⟨1, _⟩ => show win0_4.index t (1 : Fin 3) * 256 ≤ (i 1).val ∧ (i 1).val < win0_4.index t (1 : Fin 3) * 256 + 256; rw [e1]; exact hrow
  | ⟨2, _⟩ => show win0_4.index t (2 : Fin 3) * 256 ≤ (i 2).val ∧ (i 2).val < win0_4.index t (2 : Fin 3) * 256 + 256; rw [e2]; omega

/-- THE ARRAY after the run is the specification's function of the argument arrays. -/
theorem final (c : Dev nD) : (dats m 0 c).arrAt 4 cfg0.N = Gm m c :=
  (dats m 0 c).arrAt_eq_of_cover 4 (Gm m c) (fun t _ => flushed_eq m c t) (cover)

/-- The kernel's run: the result array at the specification's function, the arguments unchanged. -/
theorem run : θ_run defs (onTc (τ := τ) (main (F := Ideal))) ⟨m, fun _ => 0, ρ⟩ fun r => ∀ c : Dev nD,
      r.2.mem ((c : Thread nD τ).loc main_v0) = Gm m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (run_blocks m ρ)

end Cert.KerArr

end
-- ==== Proof.lean ====
/-
  Mutual cross attention, fused into one kernel, against its jnp reference: the certificate's claims.

  Over the extended reals both programs compute, for every batch, Q = X1·W + b and K = X2·W + b, let every row of Q
  attend (K, X2) and every row of K attend (Q, X1) — softmax of the scores scaled by 1/16, the row maximum subtracted —,
  and stack the two results along the rows: one function `Spec.G` of the four argument arrays. The kernel computes it
  tile by tile over a grid of 128 points, keeping Q and K of the current batch in scratch memory (Proof/KerVal.lean,
  Proof/KerArr.lean); the reference computes it on whole arrays (Proof/RefSide.lean). The two texts differ in the scale
  (the reference divides 1 by √256, the kernel multiplies by the pattern of 1/16: Proof/Consts.lean), in one extra
  maximum with −∞ on the reference's side, and in the order and grouping of the sums, none of which the extended reals see.
  No finiteness of the inputs is used: every law applied holds at the infinities too.
-/
import proofs.«104078_j10969346474178_2_alg».proof.Defs
import proofs.«104078_j10969346474178_2_alg».proof.Proof.Gen.Kernel
import proofs.«104078_j10969346474178_2_alg».proof.Proof.Gen.Kernel.Skeleton
import proofs.«104078_j10969346474178_2_alg».proof.Proof.Gen.Kernel.Launch
import proofs.«104078_j10969346474178_2_alg».proof.Proof.Gen.Kernel.Points
import proofs.«104078_j10969346474178_2_alg».proof.Proof.Gen.Kernel.Frame
import proofs.«104078_j10969346474178_2_alg».proof.Proof.Gen.KernelIdeal
import proofs.«104078_j10969346474178_2_alg».proof.Proof.Gen.KernelIdeal.Skeleton
import proofs.«104078_j10969346474178_2_alg».proof.Proof.Gen.KernelIdeal.Launch
import proofs.«104078_j10969346474178_2_alg».proof.Proof.Gen.KernelIdeal.Points
import proofs.«104078_j10969346474178_2_alg».proof.Proof.Gen.KernelIdeal.Frame
import proofs.«104078_j10969346474178_2_alg».proof.Proof.Gen.ReferenceIdeal
import proofs.«104078_j10969346474178_2_alg».proof.Proof.Gen.Pre_finite_inputs
import proofs.«104078_j10969346474178_2_alg».proof.Proof.Gen.KernelIdeal.Value
import proofs.«104078_j10969346474178_2_alg».proof.Proof.RefRunP
import proofs.«104078_j10969346474178_2_alg».proof.Proof.RefReadP
import proofs.«104078_j10969346474178_2_alg».proof.Proof.RefSide
import proofs.«104078_j10969346474178_2_alg».proof.Proof.KerArr
import Idealize.ShloMosaic.Adequacy
import Idealize.ShloMosaic.Init

noncomputable section

namespace Cert.Proof

open Idealize.ShloMosaic Idealize.SL.Sem

/-- The word-level kernel runs and keeps its arguments. -/
theorem frame_k : Cert.frame_Kernel (hKernel := Cert.Kernel.Gen.facts) (hPre_finite_inputs := Cert.Pre_finite_inputs.Gen.facts) :=
  fun m ρ _ => Cert.Kernel.Gen.frame m ρ

/-- The idealized kernel runs and keeps its arguments. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The idealized reference runs and keeps its arguments: its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.ValueP.run (F := Ideal) m ρ)

/-- From memories agreeing on the arguments both idealized programs end with the specification's function of them. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KerVal.Gm m c, Cert.KerArr.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v40_eq, Cert.RefSide.ref_eq, (hagree c).1, (hagree c).2.1, (hagree c).2.2.1,
    (hagree c).2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
